-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S256x2 .f32) (main_arg16 : FVec F S2 .f32) (main_v63 : IVec S_ 1) (main_v67 : IVec S_ 1) : IVec S_ 1 :=
  let main_v68 : IVec S_ 1 := andi main_v63 main_v67
  let main_v69 : FVec F S256x2 .f32 := Host.absf main_arg15
  let main_cst_26 : FVec F S_ .f32 := constant S_ .f32 0x7F800000#32
  let main_v70 : FVec F S256x2 .f32 := broadcastInDim S256x2 ![] bcast_S_S256x2 main_cst_26
  let main_v71 : IVec S256x2 1 := cmpf .olt main_v69 main_v70
  let main_c_27 : IVec S_ 1 := constantI S_ 1 1#1
  let main_v72 : IVec S_ 1 := (fun x v => Host.reduce IntOp.andi x v reducesTo_S256x2_S_d0_1 h_S_) main_v71 main_c_27
  let main_v73 : IVec S_ 1 := andi main_v68 main_v72
  let main_v74 : FVec F S2 .f32 := Host.absf main_arg16
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg12 : FVec F S256 .f32) (main_arg13 : FVec F S256 .f32) (main_arg14 : FVec F S256 .f32) (main_arg15 : FVec F S256x2 .f32) (main_arg16 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_v63 main_v67

def fn_part2 {F : FTy → Type} [FloatOps F] (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S256x2 .f32) (main_arg16 : FVec F S2 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_v48 main_v49 main_v50

def fn_part1 {F : FTy → Type} [FloatOps F] (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S256x2 .f32) (main_arg16 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x512 .f32) (main_arg1 : IVec S2x800000 32) (main_arg2 : FVec F S800000 .f32) (main_arg3 : FVec F S512x256 .f32) (main_arg4 : FVec F S256 .f32) (main_arg5 : FVec F S256 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S256x2 .f32) (main_arg16 : FVec F S2 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x512 : Shape := ⟨2, ![50000, 512]⟩
abbrev S2x800000 : Shape := ⟨2, ![2, 800000]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x2 : Shape := ⟨2, ![50000, 2]⟩
abbrev S2000x2 : Shape := ⟨2, ![2000, 2]⟩
abbrev S850000x2 : Shape := ⟨2, ![850000, 2]⟩
abbrev S1x2 : Shape := ⟨2, ![1, 2]⟩

abbrev nBuf : Space → Nat
  | .hbm => 129
  | .vmem => 31
  | .smem => 0
  | _ => 0

abbrev hbmTy0_0 (i : Nat) : BufTy := match i % 128 with
  | 0 => ⟨S50000x512, .f32⟩
  | 1 => ⟨S2x800000, .i32⟩
  | 2 => ⟨S800000, .f32⟩
  | 3 => ⟨S512x256, .f32⟩
  | 4 => ⟨S256, .f32⟩
  | 5 => ⟨S256, .f32⟩
  | 6 => ⟨S256, .f32⟩
  | 7 => ⟨S256, .f32⟩
  | 8 => ⟨S256, .f32⟩
  | 9 => ⟨S256x256, .f32⟩
  | 10 => ⟨S256, .f32⟩
  | 11 => ⟨S256, .f32⟩
  | 12 => ⟨S256, .f32⟩
  | 13 => ⟨S256, .f32⟩
  | 14 => ⟨S256, .f32⟩
  | 15 => ⟨S256x2, .f32⟩
  | 16 => ⟨S2, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S_, .f32⟩
  | 25 => ⟨S50000, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S50000x256, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x256, .f32⟩
  | 69 => ⟨S850000x1, .f32⟩
  | 70 => ⟨S850000x256, .f32⟩
  | 71 => ⟨S850000x256, .f32⟩
  | 72 => ⟨S_, .f32⟩
  | 73 => ⟨S50000x256, .f32⟩
  | 74 => ⟨S850000x1, .i32⟩
  | 75 => ⟨S50000x256, .f32⟩
  | 76 => ⟨S1x256, .f32⟩
  | 77 => ⟨S50000x256, .f32⟩
  | 78 => ⟨S50000x256, .f32⟩
  | 79 => ⟨S1x256, .f32⟩
  | 80 => ⟨S1x256, .f32⟩
  | 81 => ⟨S1x256, .f32⟩
  | 82 => ⟨S1x256, .f32⟩
  | 83 => ⟨S50000x256, .f32⟩
  | 84 => ⟨S50000x256, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000x256, .f32⟩
  | 94 => ⟨S850000x1, .f32⟩
  | 95 => ⟨S850000x256, .f32⟩
  | 96 => ⟨S850000x256, .f32⟩
  | 97 => ⟨S_, .f32⟩
  | 98 => ⟨S50000x256, .f32⟩
  | 99 => ⟨S850000x1, .i32⟩
  | 100 => ⟨S50000x256, .f32⟩
  | 101 => ⟨S1x256, .f32⟩
  | 102 => ⟨S50000x256, .f32⟩
  | 103 => ⟨S50000x256, .f32⟩
  | 104 => ⟨S1x256, .f32⟩
  | 105 => ⟨S1x256, .f32⟩
  | 106 => ⟨S1x256, .f32⟩
  | 107 => ⟨S1x256, .f32⟩
  | 108 => ⟨S50000x256, .f32⟩
  | 109 => ⟨S50000x2, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x2, .f32⟩
  | 119 => ⟨S850000x1, .f32⟩
  | 120 => ⟨S850000x2, .f32⟩
  | 121 => ⟨S850000x2, .f32⟩
  | 122 => ⟨S_, .f32⟩
  | 123 => ⟨S50000x2, .f32⟩
  | 124 => ⟨S850000x1, .i32⟩
  | 125 => ⟨S50000x2, .f32⟩
  | 126 => ⟨S1x2, .f32⟩
  | 127 => ⟨S50000x2, .f32⟩
  | _ => ⟨S50000x512, .f32⟩

abbrev hbmTy0_1 (i : Nat) : BufTy := match i % 128 with
  | 0 => ⟨S50000x2, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x2, .f32⟩
  | .local _ .vmem, ⟨29, _⟩ => ⟨S2000x2, .f32⟩
  | .local _ .vmem, ⟨30, _⟩ => ⟨S2000x2, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_9 : Ref sig .tc := ⟨.hbm, 85, rfl⟩
abbrev main_v55 : Ref sig .tc := ⟨.hbm, 86, rfl⟩
abbrev main_v56 : Ref sig .tc := ⟨.hbm, 87, rfl⟩
abbrev main_c_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_12 : Ref sig .tc := ⟨.hbm, 110, rfl⟩
abbrev main_v77 : Ref sig .tc := ⟨.hbm, 111, rfl⟩
abbrev main_v78 : Ref sig .tc := ⟨.hbm, 112, rfl⟩
abbrev main_c_13 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_14 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x2_S256x2_0_0 : ∀ a, (![0, 0] : Fin 2 → Nat) a + S256x2.size a ≤ S256x2.size a
  h_S256x2 : 0 < S256x2.numel
  inb_S2000x2_S2000x2_0_0 : ∀ a, (![0, 0] : Fin 2 → Nat) a + S2000x2.size a ≤ S2000x2.size a
  h_S2000x2 : 0 < S2000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  dot_S2000x256_S256x2_S2000x2_1_0_0_1_n_n_wf : DotDims.WF S2000x256 S256x2 S2000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x2.size a ≤ S256x2.size a
  hwx4_1 : ∀ i : grid4.Coords, EltTy.bits .f32 = 32 ∨ (Rect.block (s := S256x2) S256x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x2.size a ≤ S50000x2.size a
  hwx4_2 : ∀ i : grid4.Coords, EltTy.bits .f32 = 32 ∨ (Rect.block (s := S50000x2) S2000x2.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v75) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S256x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S2000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S800000 : Shape := ⟨1, ![800000]⟩
abbrev S512x256 : Shape := ⟨2, ![512, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S850000 : Shape := ⟨1, ![850000]⟩
abbrev S_ : Shape := ⟨0, ![]⟩
abbrev S50000x256 : Shape := ⟨2, ![50000, 256]⟩
abbrev S850000x1 : Shape := ⟨2, ![850000, 1]⟩
abbrev S850000x256 : Shape := ⟨2, ![850000, 256]⟩
abbrev S1x256 : Shape := ⟨2, ![1, 256]⟩
abbrev S50000x2 : Shape := ⟨2, ![50000, 2]⟩
abbrev S850000x2 : Shape := ⟨2, ![850000, 2]⟩
abbrev S1x2 : Shape := ⟨2, ![1, 2]⟩

abbrev nBuf : Space → Nat
  | .hbm => 221
  | .vmem => 0
  | .smem => 0
  | _ => 0

abbrev hbmTy0_0 (i : Nat) : BufTy := match i % 128 with
  | 0 => ⟨S50000x512, .f32⟩
  | 1 => ⟨S2x800000, .i32⟩
  | 2 => ⟨S800000, .f32⟩
  | 3 => ⟨S512x256, .f32⟩
  | 4 => ⟨S256, .f32⟩
  | 5 => ⟨S256, .f32⟩
  | 6 => ⟨S256, .f32⟩
  | 7 => ⟨S256, .f32⟩
  | 8 => ⟨S256, .f32⟩
  | 9 => ⟨S256x256, .f32⟩
  | 10 => ⟨S256, .f32⟩
  | 11 => ⟨S256, .f32⟩
  | 12 => ⟨S256, .f32⟩
  | 13 => ⟨S256, .f32⟩
  | 14 => ⟨S256, .f32⟩
  | 15 => ⟨S256x2, .f32⟩
  | 16 => ⟨S2, .f32⟩
  | 17 => ⟨S50000, .i32⟩
  | 18 => ⟨S1x800000, .i32⟩
  | 19 => ⟨S800000, .i32⟩
  | 20 => ⟨S850000, .i32⟩
  | 21 => ⟨S1x800000, .i32⟩
  | 22 => ⟨S800000, .i32⟩
  | 23 => ⟨S850000, .i32⟩
  | 24 => ⟨S_, .f32⟩
  | 25 => ⟨S50000, .f32⟩
  | 26 => ⟨S850000, .f32⟩
  | 27 => ⟨S50000x256, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x256, .f32⟩
  | 69 => ⟨S850000x1, .f32⟩
  | 70 => ⟨S850000x256, .f32⟩
  | 71 => ⟨S850000x256, .f32⟩
  | 72 => ⟨S_, .f32⟩
  | 73 => ⟨S50000x256, .f32⟩
  | 74 => ⟨S850000x1, .i32⟩
  | 75 => ⟨S50000x256, .f32⟩
  | 76 => ⟨S1x256, .f32⟩
  | 77 => ⟨S50000x256, .f32⟩
  | 78 => ⟨S50000x256, .f32⟩
  | 79 => ⟨S1x256, .f32⟩
  | 80 => ⟨S50000x256, .f32⟩
  | 81 => ⟨S50000x256, .f32⟩
  | 82 => ⟨S_, .f32⟩
  | 83 => ⟨S256, .f32⟩
  | 84 => ⟨S256, .f32⟩
  | 85 => ⟨S256, .f32⟩
  | 86 => ⟨S1x256, .f32⟩
  | 87 => ⟨S50000x256, .f32⟩
  | 88 => ⟨S50000x256, .f32⟩
  | 89 => ⟨S1x256, .f32⟩
  | 90 => ⟨S50000x256, .f32⟩
  | 91 => ⟨S50000x256, .f32⟩
  | 92 => ⟨S1x256, .f32⟩
  | 93 => ⟨S50000x256, .f32⟩
  | 94 => ⟨S50000x256, .f32⟩
  | 95 => ⟨S_, .f32⟩
  | 96 => ⟨S50000x256, .f32⟩
  | 97 => ⟨S50000x256, .f32⟩
  | 98 => ⟨S50000x256, .f32⟩
  | 99 => ⟨S_, .f32⟩
  | 100 => ⟨S50000, .f32⟩
  | 101 => ⟨S850000x1, .i32⟩
  | 102 => ⟨S50000, .f32⟩
  | 103 => ⟨S_, .f32⟩
  | 104 => ⟨S50000, .f32⟩
  | 105 => ⟨S50000, .i1⟩
  | 106 => ⟨S50000, .f32⟩
  | 107 => ⟨S_, .f32⟩
  | 108 => ⟨S_, .f32⟩
  | 109 => ⟨S50000, .f32⟩
  | 110 => ⟨S50000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000, .f32⟩
  | 120 => ⟨S850000, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x512, .f32⟩

abbrev hbmTy0_1 (i : Nat) : BufTy := match i % 128 with
  | 0 => ⟨S850000x1, .i32⟩
  | 1 => ⟨S850000, .f32⟩
  | 2 => ⟨S850000, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000x256, .f32⟩
  | 12 => ⟨S850000x1, .f32⟩
  | 13 => ⟨S850000x256, .f32⟩
  | 14 => ⟨S850000x256, .f32⟩
  | 15 => ⟨S_, .f32⟩
  | 16 => ⟨S50000x256, .f32⟩
  | 17 => ⟨S850000x1, .i32⟩
  | 18 => ⟨S50000x256, .f32⟩
  | 19 => ⟨S1x256, .f32⟩
  | 20 => ⟨S50000x256, .f32⟩
  | 21 => ⟨S50000x256, .f32⟩
  | 22 => ⟨S1x256, .f32⟩
  | 23 => ⟨S50000x256, .f32⟩
  | 24 => ⟨S50000x256, .f32⟩
  | 25 => ⟨S_, .f32⟩
  | 26 => ⟨S256, .f32⟩
  | 27 => ⟨S256, .f32⟩
  | 28 => ⟨S256, .f32⟩
  | 29 => ⟨S1x256, .f32⟩
  | 30 => ⟨S50000x256, .f32⟩
  | 31 => ⟨S50000x256, .f32⟩
  | 32 => ⟨S1x256, .f32⟩
  | 33 => ⟨S50000x256, .f32⟩
  | 34 => ⟨S50000x256, .f32⟩
  | 35 => ⟨S1x256, .f32⟩
  | 36 => ⟨S50000x256, .f32⟩
  | 37 => ⟨S50000x256, .f32⟩
  | 38 => ⟨S_, .f32⟩
  | 39 => ⟨S50000x256, .f32⟩
  | 40 => ⟨S50000x256, .f32⟩
  | 41 => ⟨S50000x2, .f32⟩
  | 42 => ⟨S_, .f32⟩
  | 43 => ⟨S50000, .f32⟩
  | 44 => ⟨S850000x1, .i32⟩
  | 45 => ⟨S50000, .f32⟩
  | 46 => ⟨S_, .f32⟩
  | 47 => ⟨S50000, .f32⟩
  | 48 => ⟨S50000, .i1⟩
  | 49 => ⟨S50000, .f32⟩
  | 50 => ⟨S_, .f32⟩
  | 51 => ⟨S_, .f32⟩
  | 52 => ⟨S50000, .f32⟩
  | 53 => ⟨S50000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000, .f32⟩
  | 73 => ⟨S850000, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x2, .f32⟩
  | 83 => ⟨S850000x1, .f32⟩
  | 84 => ⟨S850000x2, .f32⟩
  | 85 => ⟨S850000x2, .f32⟩
  | 86 => ⟨S_, .f32⟩
  | 87 => ⟨S50000x2, .f32⟩
  | 88 => ⟨S850000x1, .i32⟩
  | 89 => ⟨S50000x2, .f32⟩
  | 90 => ⟨S1x2, .f32⟩
  | 91 => ⟨S50000x2, .f32⟩
  | 92 => ⟨S50000x2, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call1_cst : Ref sig .tc := ⟨.hbm, 95, rfl⟩
abbrev main_call1_v0 : Ref sig .tc := ⟨.hbm, 96, rfl⟩
abbrev main_v64 : Ref sig .tc := ⟨.hbm, 97, rfl⟩
abbrev main_v65 : Ref sig .tc := ⟨.hbm, 98, rfl⟩
abbrev main_cst_10 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_11 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_12 : Ref sig .tc := ⟨.hbm, 107, rfl⟩
abbrev main_call2_v0 : Ref sig .tc := ⟨.hbm, 108, rfl⟩
abbrev main_call2_v1 : Ref sig .tc := ⟨.hbm, 109, rfl⟩
abbrev main_v72 : Ref sig .tc := ⟨.hbm, 110, rfl⟩
abbrev main_c_13 : Ref sig .tc := ⟨.hbm, 111, rfl⟩
abbrev main_v73 : Ref sig .tc := ⟨.hbm, 112, rfl⟩
abbrev main_v74 : Ref sig .tc := ⟨.hbm, 113, rfl⟩
abbrev main_c_14 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_c_15 : Ref sig .tc := ⟨.hbm, 121, rfl⟩
abbrev main_v81 : Ref sig .tc := ⟨.hbm, 122, rfl⟩
abbrev main_v82 : Ref sig .tc := ⟨.hbm, 123, rfl⟩
abbrev main_c_16 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_17 : Ref sig .tc := ⟨.hbm, 131, rfl⟩
abbrev main_v89 : Ref sig .tc := ⟨.hbm, 132, rfl⟩
abbrev main_v90 : Ref sig .tc := ⟨.hbm, 133, rfl⟩
abbrev main_c_18 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_19 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_20 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_call3_cst : Ref sig .tc := ⟨.hbm, 166, rfl⟩
abbrev main_call3_v0 : Ref sig .tc := ⟨.hbm, 167, rfl⟩
abbrev main_v120 : Ref sig .tc := ⟨.hbm, 168, rfl⟩
abbrev main_v121 : Ref sig .tc := ⟨.hbm, 169, rfl⟩
abbrev main_cst_21 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_22 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_23 : Ref sig .tc := ⟨.hbm, 178, rfl⟩
abbrev main_call4_v0 : Ref sig .tc := ⟨.hbm, 179, rfl⟩
abbrev main_call4_v1 : Ref sig .tc := ⟨.hbm, 180, rfl⟩
abbrev main_v128 : Ref sig .tc := ⟨.hbm, 181, rfl⟩
abbrev main_c_24 : Ref sig .tc := ⟨.hbm, 182, rfl⟩
abbrev main_v129 : Ref sig .tc := ⟨.hbm, 183, rfl⟩
abbrev main_v130 : Ref sig .tc := ⟨.hbm, 184, rfl⟩
abbrev main_c_25 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_c_26 : Ref sig .tc := ⟨.hbm, 192, rfl⟩
abbrev main_v137 : Ref sig .tc := ⟨.hbm, 193, rfl⟩
abbrev main_v138 : Ref sig .tc := ⟨.hbm, 194, rfl⟩
abbrev main_c_27 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_c_28 : Ref sig .tc := ⟨.hbm, 202, rfl⟩
abbrev main_v145 : Ref sig .tc := ⟨.hbm, 203, rfl⟩
abbrev main_v146 : Ref sig .tc := ⟨.hbm, 204, rfl⟩
abbrev main_c_29 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_30 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x2_S50000x2_1_0_0_1_n_n_wf : DotDims.WF S50000x256 S256x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

class Facts : Prop extends Facts₀ where

variable [Facts]
-- ==== Proof.KernelRun.lean ====
/-
  The whole program's run with its result named. From any memory with zero counters every weakly fair execution of
  the program terminates, nothing faulting; the final state holds, at every buffer the program does not scope, the
  contents the last boundary of the program's segments states (host stretches folded, each region's arrays at what its
  write-backs leave). Read at the result buffer this names the program's result; read at the arguments it gives them
  back as launched. The frame claim keeps only the second reading; a value claim needs the first as well.
-/
import proofs.«163034_j11407433138237_1_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments
    as launched. -/
theorem run_result : θ_run defs (onTc (τ := τ) (main (F := F))) ⟨m, fun _ => 0, ρ⟩ (fun r => ∀ c : Dev nD,
      r.2.mem ((c.tc : Thread nD τ).loc main_v92) = W11 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v92 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c)⟩)

end Cert.KernelIdeal.Val

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«163034_j11407433138237_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.Dense0.lean ====
/-
  The first dense transform. The region walks the 50000 rows of its left operand in 25 blocks of 2000 rows; at each
  block the body multiplies the 2000×512 block by the whole 512×256 right operand (both narrowed first, which changes
  nothing on the extended reals) into a zero accumulator and stores the 2000×256 result, which is written back as the
  same 2000 rows of the output array. An entry of a product depends on one row of the left operand only, so block t of
  the output is rows 2000·t … 2000·t+1999 of the product of the WHOLE arrays; the 25 blocks cover every row; hence
  the output array after the region is the product of the two arrays the region was entered with.
-/
import proofs.«163034_j11407433138237_1_alg».proof.Proof.Gen.KernelIdeal.Frame
import proofs.«163034_j11407433138237_1_alg».proof.Proof.LibMatProd
import Idealize.ShloMosaic.Lib.Pipeline.Value
import Idealize.ShloMosaic.Lib.ValueIdx

set_option maxRecDepth 16384

open scoped BigOperators

noncomputable section

namespace Cert.KernelIdeal.Val

open Idealize.ShloMosaic Idealize.ShloMosaic.TcCoe Idealize.ShloMosaic.ValueIdx Idealize.SL.Sem
open Cert.KernelIdeal Cert.KernelIdeal.Gen Cert.Lib.MatProd
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The body's arithmetic is the product of its two loaded blocks. -/
theorem prod0_body (x0 : Vec Ideal S2000x512 .f32) (x1 : Vec Ideal S512x256 .f32) :
    k0_pay1 x0 x1 = matProd x0 x1 := by
  unfold k0_pay1
  exact (matmul_zero_eq_matProd dot_S2000x512_S512x256_S2000x256_1_0_0_1_n_n rfl rfl rfl rfl rfl rfl none _ _).trans rfl

/-- Where the three windows sit at grid point t: the left operand's and the output's block of rows t, the right
    operand whole. -/
theorem blocks0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point t writes back is block t of the product of the whole arrays. -/
theorem rows0 (c : Dev nD) (t : Fin cfg0.N) :
    (dat0 V c).flushed 2 t
      = ((cfg0.win 2).blk t).view.read (Elt Ideal) (matProd (V c main_arg0) (V c main_arg3)) := by
  show (cfg0.win 2).cut (grid0.coords t) ((dat0 V c).after 2 t) = _
  rw [after0_2]
  unfold out0_2
  rw [View.canon_unit_zero zeros2]
  simp only [View.ld_unit_zero (S := S2000x512) zeros2, View.ld_unit_zero (S := S512x256) zeros2]
  rw [prod0_body]
  obtain ⟨e0, e1, e2, e3, e4, e5⟩ := blocks0 t
  funext j
  show matProd _ _ j = matProd _ _ (((cfg0.win 2).blk t).view.emb j)
  unfold matProd
  refine Finset.sum_congr rfl fun k _ => ?_
  have hl : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 512 + 1 * k.val = k.val
      omega
  have hr : iblk0 V c 1 t (ix2 k (j 1)) = V c main_arg3 (ix2 k ((((cfg0.win 2).blk t).view.emb j) 1)) := by
    show V c main_arg3 (((cfg0.win 1).blk t).view.emb (ix2 k (j 1))) = _
    refine congrArg (V c main_arg3) (funext fun a => Fin.ext ?_)
    match a with
    | ⟨0, _⟩ =>
      show win0_1.index t (0 : Fin 2) * 512 + 1 * k.val = k.val
      omega
    | ⟨1, _⟩ =>
      show win0_1.index t (1 : Fin 2) * 256 + 1 * (j 1).val = win0_2.index t (1 : Fin 2) * 256 + 1 * (j 1).val
      omega
  rw [hl, hr]

/-- An index of the output array is in point t's block iff its row is among the block's 2000 rows. -/
theorem in_rows0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v32).slice (win0_2.rect t)).set ↔ _
  rw [View.set_slice_whole, Rect.mem_set_unit]
  exact Iff.rfl

/-- Every row is in the block of the point numbered by its quotient by 2000. -/
theorem all_rows0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, e4, e5⟩ := blocks0 t
  refine ⟨t, flush0_2 t, ?_⟩
  rw [in_rows0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 256 ≤ (i 1).val ∧ (i 1).val < win0_2.index t (1 : Fin 2) * 256 + 256
    omega

/-- The output array after the region: the product of the arrays it was entered with. -/
theorem product0 (c : Dev nD) :
    (dat0 V c).arrAt 2 cfg0.N = matProd (V c main_arg0) (V c main_arg3) :=
  (dat0 V c).arrAt_eq_of_cover 2 _ (fun t _ => rows0 V c t) all_rows0

end Cert.KernelIdeal.Val

end
-- ==== Proof.Dense2.lean ====
/-
  The second dense transform: as the first, with the 50000×256 output of the first normalisation on the left (walked
  in 25 blocks of 2000 rows, each cast to its own shape, which changes nothing) and the whole 256×256 weight on the
  right. The output array after the region is the product of the two arrays the region was entered with.
-/
import proofs.«163034_j11407433138237_1_alg».proof.Proof.Gen.KernelIdeal.Frame
import proofs.«163034_j11407433138237_1_alg».proof.Proof.LibMatProd
import proofs.«163034_j11407433138237_1_alg».proof.Proof.Dense0
import Idealize.ShloMosaic.Lib.Pipeline.Value
import Idealize.ShloMosaic.Lib.ValueIdx

set_option maxRecDepth 16384

open scoped BigOperators

noncomputable section

namespace Cert.KernelIdeal.Val

open Idealize.ShloMosaic Idealize.ShloMosaic.TcCoe Idealize.ShloMosaic.ValueIdx Idealize.SL.Sem
open Cert.KernelIdeal Cert.KernelIdeal.Gen Cert.Lib.MatProd
open Idealize.ShloMosaic.Pipeline (Dat)

variable (V : (c : Dev nD) → (b : Ref sig .tc) → Buf (Elt Ideal) ((c : Thread nD τ).loc b))

/-- The body's arithmetic is the product of its two loaded blocks. -/
theorem prod2_body (x0 : Vec Ideal S2000x256 .f32) (x1 : Vec Ideal S256x256 .f32) :
    k2_pay1 x0 x1 = matProd x0 x1 := by
  unfold k2_pay1
  rw [shapeCast_self]
  exact (matmul_zero_eq_matProd dot_S2000x256_S256x256_S2000x256_1_0_0_1_n_n rfl rfl rfl rfl rfl rfl none _ _).trans rfl

/-- Where the three windows sit at grid point t: the left operand's and the output's block of rows t, the right
    operand whole. -/
theorem blocks2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- What point t writes back is block t of the product of the whole arrays. -/
theorem rows2 (c : Dev nD) (t : Fin cfg2.N) :
    (dat2 V c).flushed 2 t
      = ((cfg2.win 2).blk t).view.read (Elt Ideal) (matProd (V c main_v53) (V c main_arg9)) := by
  show (cfg2.win 2).cut (grid2.coords t) ((dat2 V c).after 2 t) = _
  rw [after2_2]
  unfold out2_2
  rw [View.canon_unit_zero zeros2]
  simp only [View.ld_unit_zero (S := S2000x256) zeros2, View.ld_unit_zero (S := S256x256) zeros2]
  rw [prod2_body]
  obtain ⟨e0, e1, e2, e3, e4, e5⟩ := blocks2 t
  funext j
  show matProd _ _ j = matProd _ _ (((cfg2.win 2).blk t).view.emb j)
  unfold matProd
  refine Finset.sum_congr rfl fun k _ => ?_
  have hl : iblk2 V c 0 t (ix2 (j 0) k) = V c main_v53 (ix2 ((((cfg2.win 2).blk t).view.emb j) 0) k) := by
    show V c main_v53 (((cfg2.win 0).blk t).view.emb (ix2 (j 0) k)) = _
    refine congrArg (V c main_v53) (funext fun a => Fin.ext ?_)
    match a with
    | ⟨0, _⟩ =>
      show win2_0.index t (0 : Fin 2) * 2000 + 1 * (j 0).val = win2_2.index t (0 : Fin 2) * 2000 + 1 * (j 0).val
      omega
    | ⟨1, _⟩ =>
      show win2_0.index t (1 : Fin 2) * 256 + 1 * k.val = k.val
      omega
  have hr : iblk2 V c 1 t (ix2 k (j 1)) = V c main_arg9 (ix2 k ((((cfg2.win 2).blk t).view.emb j) 1)) := by
    show V c main_arg9 (((cfg2.win 1).blk t).view.emb (ix2 k (j 1))) = _
    refine congrArg (V c main_arg9) (funext fun a => Fin.ext ?_)
    match a with
    | ⟨0, _⟩ =>
      show win2_1.index t (0 : Fin 2) * 256 + 1 * k.val = k.val
      omega
    | ⟨1, _⟩ =>
      show win2_1.index t (1 : Fin 2) * 256 + 1 * (j 1).val = win2_2.index t (1 : Fin 2) * 256 + 1 * (j 1).val
      omega
  rw [hl, hr]

/-- An index of the output array is in point t's block iff its row is among the block's 2000 rows. -/
theorem in_rows2 (t : Fin cfg2.N) (i : S50000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v54).slice (win2_2.rect t)).set ↔ _
  rw [View.set_slice_whole, Rect.mem_set_unit]
  exact Iff.rfl

/-- Every row is in the block of the point numbered by its quotient by 2000. -/
theorem all_rows2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, e4, e5⟩ := blocks2 t
  refine ⟨t, flush2_2 t, ?_⟩
  rw [in_rows2]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 256 ≤ (i 1).val ∧ (i 1).val < win2_2.index t (1 : Fin 2) * 256 + 256
    omega

/-- The output array after the region: the product of the arrays it was entered with. -/
theorem product2 (c : Dev nD) :
    (dat2 V c).arrAt 2 cfg2.N = matProd (V c main_v53) (V c main_arg9) :=
  (dat2 V c).arrAt_eq_of_cover 2 _ (fun t _ => rows2 V c t) all_rows2

end Cert.KernelIdeal.Val

end
-- ==== Proof.Dense4.lean ====
/-
  The third dense transform: as the first, with the 50000×256 output of the second normalisation on the left (walked
  in 25 blocks of 2000 rows, each cast to its own shape, which changes nothing) and the whole 256×2 weight on the
  right; the output has two columns. The output array after the region is the product of the two arrays the region
  was entered with.
-/
import proofs.«163034_j11407433138237_1_alg».proof.Proof.Gen.KernelIdeal.Frame
import proofs.«163034_j11407433138237_1_alg».proof.Proof.LibMatProd
import proofs.«163034_j11407433138237_1_alg».proof.Proof.Dense0
import Idealize.ShloMosaic.Lib.Pipeline.Value
import Idealize.ShloMosaic.Lib.ValueIdx

set_option maxRecDepth 16384

open scoped BigOperators

noncomputable section

namespace Cert.KernelIdeal.Val

open Idealize.ShloMosaic Idealize.ShloMosaic.TcCoe Idealize.ShloMosaic.ValueIdx Idealize.SL.Sem
open Cert.KernelIdeal Cert.KernelIdeal.Gen Cert.Lib.MatProd
open Idealize.ShloMosaic.Pipeline (Dat)

variable (V : (c : Dev nD) → (b : Ref sig .tc) → Buf (Elt Ideal) ((c : Thread nD τ).loc b))

/-- The body's arithmetic is the product of its two loaded blocks. -/
theorem prod4_body (x0 : Vec Ideal S2000x256 .f32) (x1 : Vec Ideal S256x2 .f32) :
    k4_pay1 x0 x1 = matProd x0 x1 := by
  unfold k4_pay1
  rw [shapeCast_self]
  exact (matmul_zero_eq_matProd dot_S2000x256_S256x2_S2000x2_1_0_0_1_n_n rfl rfl rfl rfl rfl rfl none _ _).trans rfl

/-- Where the three windows sit at grid point t: the left operand's and the output's block of rows t, the right
    operand whole. -/
theorem blocks4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) = t.val :=
  (by decide +kernel : ∀ t : Fin grid4.N, _)

/-- What point t writes back is block t of the product of the whole arrays. -/
theorem rows4 (c : Dev nD) (t : Fin cfg4.N) :
    (dat4 V c).flushed 2 t
      = ((cfg4.win 2).blk t).view.read (Elt Ideal) (matProd (V c main_v75) (V c main_arg15)) := by
  show (cfg4.win 2).cut (grid4.coords t) ((dat4 V c).after 2 t) = _
  rw [after4_2]
  unfold out4_2
  rw [View.canon_unit_zero zeros2]
  simp only [View.ld_unit_zero (S := S2000x256) zeros2, View.ld_unit_zero (S := S256x2) zeros2]
  rw [prod4_body]
  obtain ⟨e0, e1, e2, e3, e4, e5⟩ := blocks4 t
  funext j
  show matProd _ _ j = matProd _ _ (((cfg4.win 2).blk t).view.emb j)
  unfold matProd
  refine Finset.sum_congr rfl fun k _ => ?_
  have hl : iblk4 V c 0 t (ix2 (j 0) k) = V c main_v75 (ix2 ((((cfg4.win 2).blk t).view.emb j) 0) k) := by
    show V c main_v75 (((cfg4.win 0).blk t).view.emb (ix2 (j 0) k)) = _
    refine congrArg (V c main_v75) (funext fun a => Fin.ext ?_)
    match a with
    | ⟨0, _⟩ =>
      show win4_0.index t (0 : Fin 2) * 2000 + 1 * (j 0).val = win4_2.index t (0 : Fin 2) * 2000 + 1 * (j 0).val
      omega
    | ⟨1, _⟩ =>
      show win4_0.index t (1 : Fin 2) * 256 + 1 * k.val = k.val
      omega
  have hr : iblk4 V c 1 t (ix2 k (j 1)) = V c main_arg15 (ix2 k ((((cfg4.win 2).blk t).view.emb j) 1)) := by
    show V c main_arg15 (((cfg4.win 1).blk t).view.emb (ix2 k (j 1))) = _
    refine congrArg (V c main_arg15) (funext fun a => Fin.ext ?_)
    match a with
    | ⟨0, _⟩ =>
      show win4_1.index t (0 : Fin 2) * 256 + 1 * k.val = k.val
      omega
    | ⟨1, _⟩ =>
      show win4_1.index t (1 : Fin 2) * 2 + 1 * (j 1).val = win4_2.index t (1 : Fin 2) * 2 + 1 * (j 1).val
      omega
  rw [hl, hr]

/-- An index of the output array is in point t's block iff its row is among the block's 2000 rows. -/
theorem in_rows4 (t : Fin cfg4.N) (i : S50000x2.Idx) :
    i ∈ ((cfg4.win 2).blk t).view.set ↔ ∀ a : Fin 2, win4_2.index t a * S2000x2.size a ≤ (i a).val
      ∧ (i a).val < win4_2.index t a * S2000x2.size a + S2000x2.size a := by
  show i ∈ ((View.whole main_v76).slice (win4_2.rect t)).set ↔ _
  rw [View.set_slice_whole, Rect.mem_set_unit]
  exact Iff.rfl

/-- Every row is in the block of the point numbered by its quotient by 2000. -/
theorem all_rows4 (i : S50000x2.Idx) :
    ∃ t : Fin cfg4.N, (cfg4.win 2).flush t = true ∧ i ∈ ((cfg4.win 2).blk t).view.set := by
  have hi0 : (i 0).val < 50000 := (i 0).isLt
  have hi1 : (i 1).val < 2 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, e4, e5⟩ := blocks4 t
  refine ⟨t, flush4_2 t, ?_⟩
  rw [in_rows4]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 2 ≤ (i 1).val ∧ (i 1).val < win4_2.index t (1 : Fin 2) * 2 + 2
    omega

/-- The output array after the region: the product of the arrays it was entered with. -/
theorem product4 (c : Dev nD) :
    (dat4 V c).arrAt 2 cfg4.N = matProd (V c main_v75) (V c main_arg15) :=
  (dat4 V c).arrAt_eq_of_cover 2 _ (fun t _ => rows4 V c t) all_rows4

end Cert.KernelIdeal.Val

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«163034_j11407433138237_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«163034_j11407433138237_1_alg».proof.Proof.LibBlockReads
import proofs.«163034_j11407433138237_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«163034_j11407433138237_1_alg».proof.Proof.LibMatProd
import proofs.«163034_j11407433138237_1_alg».proof.Proof.LibBiasRelu
import proofs.«163034_j11407433138237_1_alg».proof.Proof.LibRowVector
import proofs.«163034_j11407433138237_1_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.LibNormLayers.lean ====
/-
  Normalisation layers on the extended reals, as functions of whole arrays.

  `normRelu X μ v g β` is, entry by entry, max (((X(p,q) − μ(q)) · rsqrt (v(q) + ε)) · g(q) + β(q)) 0 with the four
  per-column quantities given as 1×n rows and ε the single-precision word 0x3727C5AC: a normalisation of every
  column by a given mean and variance, an affine map per column, and a clamp below at zero. A kernel body spells it
  with re-shapings in place and broadcasts of 1×n rows; a host program spells it with vectors broadcast to a row and
  then down the rows; both are this one function, the operations being the same in the same order. An entry depends
  on one entry of X, so a block of rows of X gives the same rows of the result; followed by a matrix product and a
  bias row (`normAffine`), a block of rows of X still gives the same rows of the result. No finiteness is asked:
  nothing is re-associated or distributed. Nothing here mentions a program.
-/
import Idealize.ShloMosaic.PureOps.Ideal.Laws
import Idealize.ShloMosaic.Lib.ValueIdx
import Idealize.ShloMosaic.Lib.Pipeline.Value
import proofs.«163034_j11407433138237_1_alg».proof.Proof.LibBlockReads
import proofs.«163034_j11407433138237_1_alg».proof.Proof.LibMatProd
import proofs.«163034_j11407433138237_1_alg».proof.Proof.LibRowVector
import proofs.«163034_j11407433138237_1_alg».proof.Proof.LibDenseLayers

open scoped BigOperators

noncomputable section

namespace Cert.Lib.NormLayers

open Idealize.ShloMosaic Idealize.ShloMosaic.ValueIdx Cert.Lib.MatProd Cert.Lib.RowVector Cert.Layers

variable {r r' n k m : Nat}

/-- The column of an index of an r×n array, as an index of a 1×n row. -/
abbrev colOf (i : (⟨2, ![r, n]⟩ : Shape).Idx) : (⟨2, ![1, n]⟩ : Shape).Idx :=
  ix2 (0 : Fin 1) (⟨(i 1).val, idx2_lt1 i⟩ : Fin n)

/-- Entry (p, q) is max (((X(p,q) − μ(q)) · rsqrt (v(q) + ε)) · g(q) + β(q)) 0. -/
def normRelu (X : (⟨2, ![r, n]⟩ : Shape).Idx → EReal) (μ v g β : (⟨2, ![1, n]⟩ : Shape).Idx → EReal) :
    (⟨2, ![r, n]⟩ : Shape).Idx → EReal :=
  fun i => max ((X i - μ (colOf i)) * Ideal.rsqrt (v (colOf i) + Ideal.ofBits .f32 0x3727C5AC#32) * g (colOf i)
    + β (colOf i)) (Ideal.ofBits .f32 0x00000000#32)

theorem normRelu_apply (X : (⟨2, ![r, n]⟩ : Shape).Idx → EReal) (μ v g β : (⟨2, ![1, n]⟩ : Shape).Idx → EReal)
    (p : Fin r) (q : Fin n) :
    normRelu X μ v g β (ix2 p q) = max ((X (ix2 p q) - μ (ix2 0 q)) * Ideal.rsqrt (v (ix2 0 q)
      + Ideal.ofBits .f32 0x3727C5AC#32) * g (ix2 0 q) + β (ix2 0 q)) (Ideal.ofBits .f32 0x00000000#32) := rfl

/-- An entry depends on one entry of X and on the rows' entries of its column. -/
theorem normRelu_entry (X : (⟨2, ![r, n]⟩ : Shape).Idx → EReal) (X' : (⟨2, ![r', n]⟩ : Shape).Idx → EReal)
    (μ v g β μ' v' g' β' : (⟨2, ![1, n]⟩ : Shape).Idx → EReal) (p' : Fin r') (p : Fin r) (q : Fin n)
    (hX : X' (ix2 p' q) = X (ix2 p q)) (hμ : μ' (ix2 0 q) = μ (ix2 0 q)) (hv : v' (ix2 0 q) = v (ix2 0 q))
    (hg : g' (ix2 0 q) = g (ix2 0 q)) (hβ : β' (ix2 0 q) = β (ix2 0 q)) :
    normRelu X' μ' v' g' β' (ix2 p' q) = normRelu X μ v g β (ix2 p q) := by
  rw [normRelu_apply, normRelu_apply, hX, hμ, hv, hg, hβ]

/-- The kernel body's spelling: every operand re-shaped in place, the rows broadcast down the rows. -/
theorem body_normRelu (x0 : FVec Ideal ⟨2, ![r, n]⟩ .f32) (xv xm xg xb : FVec Ideal ⟨2, ![1, n]⟩ .f32)
    (h0 : (⟨2, ![r, n]⟩ : Shape).ShapeCasts ⟨2, ![r, n]⟩) (h1 : (⟨2, ![1, n]⟩ : Shape).ShapeCasts ⟨2, ![1, n]⟩)
    (hb : (⟨2, ![1, n]⟩ : Shape).Broadcasts ⟨2, ![r, n]⟩) :
    maximumf (addf (mulf (mulf (subf (shapeCast ⟨2, ![r, n]⟩ x0 h0)
        (broadcastTo ⟨2, ![r, n]⟩ (shapeCast ⟨2, ![1, n]⟩ xm h1) hb))
        (broadcastTo ⟨2, ![r, n]⟩ (rsqrt (addf (shapeCast ⟨2, ![1, n]⟩ xv h1)
          (broadcast ⟨2, ![1, n]⟩ (Scalar.ofBits (F := Ideal) .f32 0x3727C5AC#32)))) hb))
        (broadcastTo ⟨2, ![r, n]⟩ (shapeCast ⟨2, ![1, n]⟩ xg h1) hb))
        (broadcastTo ⟨2, ![r, n]⟩ (shapeCast ⟨2, ![1, n]⟩ xb h1) hb))
      (broadcast ⟨2, ![r, n]⟩ (Scalar.ofBits (F := Ideal) .f32 0x00000000#32)) = normRelu x0 xm xv xg xb := by
  funext i
  obtain ⟨p, q, rfl⟩ : ∃ (p : Fin r) (q : Fin n), i = ix2 p q := ⟨i 0, i 1, eq_ix2 i⟩
  rw [maximumf_apply, addf_apply, mulf_apply, mulf_apply, subf_apply]
  simp only [Cert.Lib.BlockReads.broadcast_row_apply, shapeCast_self]
  rfl

/-- The reference's spelling: every vector broadcast into a 1×n row and that down the rows. -/
theorem host_normRelu (X : FVec Ideal ⟨2, ![r, n]⟩ .f32) (μ v g β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (hv : (⟨0, ![]⟩ : Shape).BroadcastsInDim ⟨1, ![n]⟩ ![])
    (h3 : (⟨0, ![]⟩ : Shape).BroadcastsInDim ⟨2, ![r, n]⟩ ![]) :
    maximumf (addf (mulf (mulf (subf X
        (broadcastInDim ⟨2, ![r, n]⟩ ![0, 1] h2 (broadcastInDim ⟨2, ![1, n]⟩ ![1] h1 μ)))
        (broadcastInDim ⟨2, ![r, n]⟩ ![0, 1] h2 (broadcastInDim ⟨2, ![1, n]⟩ ![1] h1
          (Host.rsqrt (addf v (broadcastInDim ⟨1, ![n]⟩ ![] hv (constant (F := Ideal) ⟨0, ![]⟩ .f32 0x3727C5AC#32)))))))
        (broadcastInDim ⟨2, ![r, n]⟩ ![0, 1] h2 (broadcastInDim ⟨2, ![1, n]⟩ ![1] h1 g)))
        (broadcastInDim ⟨2, ![r, n]⟩ ![0, 1] h2 (broadcastInDim ⟨2, ![1, n]⟩ ![1] h1 β)))
      (broadcastInDim ⟨2, ![r, n]⟩ ![] h3 (constant (F := Ideal) ⟨0, ![]⟩ .f32 0x00000000#32))
      = normRelu X (asRow μ) (asRow v) (asRow g) (asRow β) := by
  funext i
  obtain ⟨p, q, rfl⟩ : ∃ (p : Fin r) (q : Fin n), i = ix2 p q := ⟨i 0, i 1, eq_ix2 i⟩
  rw [maximumf_apply, addf_apply, mulf_apply, mulf_apply, subf_apply, bcastInDim_rows_apply, bcastInDim_rows_apply,
    bcastInDim_rows_apply, bcastInDim_rows_apply, bcastInDim_eq_asRow, bcastInDim_eq_asRow, bcastInDim_eq_asRow,
    bcastInDim_eq_asRow, bcastInDim_scalar_apply]
  show max ((X (ix2 p q) - asRow μ (ix2 0 q)) * Ideal.rsqrt (v (ix1 q)
      + broadcastInDim ⟨1, ![n]⟩ ![] hv (constant (F := Ideal) ⟨0, ![]⟩ .f32 0x3727C5AC#32) (ix1 q)) * asRow g (ix2 0 q)
      + asRow β (ix2 0 q)) _ = _
  rw [bcastInDim_scalar_apply]
  rfl

/-! ## A bias given as a 1×n row -/

/-- The kernel body's bias when the row is re-shaped in place: broadcast down the rows, then added. -/
theorem body_bias_row (M : FVec Ideal ⟨2, ![r, n]⟩ .f32) (b : FVec Ideal ⟨2, ![1, n]⟩ .f32)
    (h : (⟨2, ![1, n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ b h) hb) = biasAdd M b := by
  funext i
  obtain ⟨p, q, rfl⟩ : ∃ (p : Fin r) (q : Fin n), i = ix2 p q := ⟨i 0, i 1, eq_ix2 i⟩
  rw [addf_apply, Cert.Lib.BlockReads.broadcast_row_apply, shapeCast_self]
  rfl

/-- A product with a bias row: entry (p, q) is ∑ c, X(p, c) · W(c, q) + b(0, q). -/
def affineRow (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  biasAdd (matProd X W) b

/-- Entry (p', q) of the layer of X', W', b' is entry (p, q) of the layer of X, W, b when row p' of X' is row p of X,
    column q of W' is column q of W and entry q of b' is entry q of b. -/
theorem affineRow_entry (X : (⟨2, ![r, k]⟩ : Shape).Idx → EReal) (X' : (⟨2, ![r', k]⟩ : Shape).Idx → EReal)
    (W W' : (⟨2, ![k, n]⟩ : Shape).Idx → EReal) (b b' : (⟨2, ![1, n]⟩ : Shape).Idx → EReal)
    (p' : Fin r') (p : Fin r) (q : Fin n)
    (hX : ∀ c : Fin k, X' (ix2 p' c) = X (ix2 p c)) (hW : ∀ c : Fin k, W' (ix2 c q) = W (ix2 c q))
    (hb : b' (ix2 0 q) = b (ix2 0 q)) :
    affineRow X' W' b' (ix2 p' q) = affineRow X W b (ix2 p q) := by
  unfold affineRow
  rw [biasAdd_apply, biasAdd_apply, hb, matProd_block X X' W W' p' q p q hX hW]

/-- The normalisation followed by a product and a bias row. -/
def normAffine (X : (⟨2, ![r, k]⟩ : Shape).Idx → EReal) (μ v g β : (⟨2, ![1, k]⟩ : Shape).Idx → EReal)
    (W : (⟨2, ![k, n]⟩ : Shape).Idx → EReal) (b : (⟨2, ![1, n]⟩ : Shape).Idx → EReal) :
    (⟨2, ![r, n]⟩ : Shape).Idx → EReal :=
  affineRow (normRelu X μ v g β) W b

theorem normAffine_entry (X : (⟨2, ![r, k]⟩ : Shape).Idx → EReal) (X' : (⟨2, ![r', k]⟩ : Shape).Idx → EReal)
    (μ v g β μ' v' g' β' : (⟨2, ![1, k]⟩ : Shape).Idx → EReal)
    (W W' : (⟨2, ![k, n]⟩ : Shape).Idx → EReal) (b b' : (⟨2, ![1, n]⟩ : Shape).Idx → EReal)
    (p' : Fin r') (p : Fin r) (q : Fin n)
    (hX : ∀ c : Fin k, X' (ix2 p' c) = X (ix2 p c))
    (hμ : ∀ c : Fin k, μ' (ix2 0 c) = μ (ix2 0 c)) (hv : ∀ c : Fin k, v' (ix2 0 c) = v (ix2 0 c))
    (hg : ∀ c : Fin k, g' (ix2 0 c) = g (ix2 0 c)) (hβ : ∀ c : Fin k, β' (ix2 0 c) = β (ix2 0 c))
    (hW : ∀ c : Fin k, W' (ix2 c q) = W (ix2 c q)) (hb : b' (ix2 0 q) = b (ix2 0 q)) :
    normAffine X' μ' v' g' β' W' b' (ix2 p' q) = normAffine X μ v g β W b (ix2 p q) :=
  affineRow_entry _ _ W W' b b' p' p q
    (fun c => normRelu_entry X X' μ v g β μ' v' g' β' p' p c (hX c) (hμ c) (hv c) (hg c) (hβ c)) hW hb

/-- The kernel body's product with a bias row: both operands narrowed (the identity on the extended reals), the
    product accumulated into zeros, the row re-shaped in place and broadcast down the rows. -/
theorem body_affineRow {φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (Y : FVec Ideal ⟨2, ![r, k]⟩ .f32) (W : FVec Ideal ⟨2, ![k, n]⟩ .f32) (b : FVec Ideal ⟨2, ![1, n]⟩ .f32)
    (hlt : φ.bits < FTy.f32.bits)
    (h : (⟨2, ![1, n]⟩ : Shape).ShapeCasts ⟨2, ![1, n]⟩) (hb : (⟨2, ![1, n]⟩ : Shape).Broadcasts ⟨2, ![r, n]⟩) :
    addf (matmul d none (truncf φ Y hlt) (truncf φ W hlt) (constant ⟨2, ![r, n]⟩ .f32 0x00000000#32))
      (broadcastTo ⟨2, ![r, n]⟩ (shapeCast ⟨2, ![1, n]⟩ b h) hb) = affineRow Y W b := by
  rw [matmul_zero_eq_matProd d hlc hrc hln hrn hlb hrb none, body_bias_row]
  rfl

/-- The reference's product with a bias vector. -/
theorem host_affineRow (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (Y : FVec Ideal ⟨2, ![r, k]⟩ .f32) (W : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf (Host.dotGeneral d none Y W)
      (broadcastInDim ⟨2, ![r, n]⟩ ![0, 1] h2 (broadcastInDim ⟨2, ![1, n]⟩ ![1] h1 b)) = affineRow Y W (asRow b) := by
  rw [host_bias]
  unfold affineRow
  congr 1
  exact dotGeneral_eq_matProd d hlc hrc hln hrn hlb hrb none _ Y W

/-- The reference's spelling of the normalisation followed by the product and the bias vector. -/
theorem host_normAffine (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (μ v g β : FVec Ideal ⟨1, ![k]⟩ .f32)
    (W : FVec Ideal ⟨2, ![k, n]⟩ .f32) (b : FVec Ideal ⟨1, ![n]⟩ .f32)
    (h1 : (⟨1, ![k]⟩ : Shape).BroadcastsInDim ⟨2, ![1, k]⟩ ![1])
    (h2 : (⟨2, ![1, k]⟩ : Shape).BroadcastsInDim ⟨2, ![r, k]⟩ ![0, 1])
    (hv : (⟨0, ![]⟩ : Shape).BroadcastsInDim ⟨1, ![k]⟩ ![])
    (h3 : (⟨0, ![]⟩ : Shape).BroadcastsInDim ⟨2, ![r, k]⟩ ![])
    (h1' : (⟨1, ![n]⟩ : Shape).BroadcastsInDim ⟨2, ![1, n]⟩ ![1])
    (h2' : (⟨2, ![1, n]⟩ : Shape).BroadcastsInDim ⟨2, ![r, n]⟩ ![0, 1]) :
    normAffine X (asRow μ) (asRow v) (asRow g) (asRow β) W (asRow b)
      = addf (Host.dotGeneral d none
          (maximumf (addf (mulf (mulf (subf X
            (broadcastInDim ⟨2, ![r, k]⟩ ![0, 1] h2 (broadcastInDim ⟨2, ![1, k]⟩ ![1] h1 μ)))
            (broadcastInDim ⟨2, ![r, k]⟩ ![0, 1] h2 (broadcastInDim ⟨2, ![1, k]⟩ ![1] h1
              (Host.rsqrt (addf v (broadcastInDim ⟨1, ![k]⟩ ![] hv (constant (F := Ideal) ⟨0, ![]⟩ .f32 0x3727C5AC#32)))))))
            (broadcastInDim ⟨2, ![r, k]⟩ ![0, 1] h2 (broadcastInDim ⟨2, ![1, k]⟩ ![1] h1 g)))
            (broadcastInDim ⟨2, ![r, k]⟩ ![0, 1] h2 (broadcastInDim ⟨2, ![1, k]⟩ ![1] h1 β)))
          (broadcastInDim ⟨2, ![r, k]⟩ ![] h3 (constant (F := Ideal) ⟨0, ![]⟩ .f32 0x00000000#32))) W)
        (broadcastInDim ⟨2, ![r, n]⟩ ![0, 1] h2' (broadcastInDim ⟨2, ![1, n]⟩ ![1] h1' b)) := by
  rw [host_normRelu, host_affineRow d hlc hrc hln hrn hlb hrb]
  rfl

/-- The two host spellings read from the layer's side (for meeting a composed term of a host program). -/
theorem normRelu_host (X : FVec Ideal ⟨2, ![r, n]⟩ .f32) (μ v g β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (hv : (⟨0, ![]⟩ : Shape).BroadcastsInDim ⟨1, ![n]⟩ ![])
    (h3 : (⟨0, ![]⟩ : Shape).BroadcastsInDim ⟨2, ![r, n]⟩ ![]) :
    normRelu X (asRow μ) (asRow v) (asRow g) (asRow β)
      = maximumf (addf (mulf (mulf (subf X
        (broadcastInDim ⟨2, ![r, n]⟩ ![0, 1] h2 (broadcastInDim ⟨2, ![1, n]⟩ ![1] h1 μ)))
        (broadcastInDim ⟨2, ![r, n]⟩ ![0, 1] h2 (broadcastInDim ⟨2, ![1, n]⟩ ![1] h1
          (Host.rsqrt (addf v (broadcastInDim ⟨1, ![n]⟩ ![] hv (constant (F := Ideal) ⟨0, ![]⟩ .f32 0x3727C5AC#32)))))))
        (broadcastInDim ⟨2, ![r, n]⟩ ![0, 1] h2 (broadcastInDim ⟨2, ![1, n]⟩ ![1] h1 g)))
        (broadcastInDim ⟨2, ![r, n]⟩ ![0, 1] h2 (broadcastInDim ⟨2, ![1, n]⟩ ![1] h1 β)))
      (broadcastInDim ⟨2, ![r, n]⟩ ![] h3 (constant (F := Ideal) ⟨0, ![]⟩ .f32 0x00000000#32)) :=
  (host_normRelu X μ v g β h1 h2 hv h3).symm

theorem affineRow_host (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (Y : FVec Ideal ⟨2, ![r, k]⟩ .f32) (W : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    affineRow Y W (asRow b) = addf (Host.dotGeneral d none Y W)
      (broadcastInDim ⟨2, ![r, n]⟩ ![0, 1] h2 (broadcastInDim ⟨2, ![1, n]⟩ ![1] h1 b)) :=
  (host_affineRow d hlc hrc hln hrn hlb hrb Y W b h1 h2).symm

end Cert.Lib.NormLayers

end
-- ==== Proof.Norm1.lean ====
/-
  The first normalisation. The region walks the 50000 rows of the aggregated array in 25 blocks of 2000 rows; the
  four per-column rows (gain, shift, mean, variance, each 1×256) are staged whole at every point. The body computes,
  entry by entry, max (((x − mean) · rsqrt (variance + ε)) · gain + shift) 0 and stores the block, which is written
  back as the same 2000 rows of the output array. An entry of the result depends on one entry of x and on its
  column's entries of the four rows, so block t of the output is rows 2000·t … 2000·t+1999 of that function of the
  WHOLE arrays; the blocks cover every row; hence the output array after the region is that function of the arrays
  the region was entered with.
-/
import proofs.«163034_j11407433138237_1_alg».proof.Proof.Gen.KernelIdeal.Frame
import proofs.«163034_j11407433138237_1_alg».proof.Proof.LibNormLayers
import Idealize.ShloMosaic.Lib.Pipeline.Value
import Idealize.ShloMosaic.Lib.ValueIdx

set_option maxRecDepth 16384

open scoped BigOperators

noncomputable section

namespace Cert.KernelIdeal.Val

open Idealize.ShloMosaic Idealize.ShloMosaic.TcCoe Idealize.ShloMosaic.ValueIdx Idealize.SL.Sem
open Cert.KernelIdeal Cert.KernelIdeal.Gen Cert.Lib.MatProd Cert.Lib.NormLayers
open Idealize.ShloMosaic.Pipeline (Dat)

variable (V : (c : Dev nD) → (b : Ref sig .tc) → Buf (Elt Ideal) ((c : Thread nD τ).loc b))

theorem zeros2' : (![0, 0] : Fin 2 → Nat) = fun _ => 0 := funext fun a => by fin_cases a <;> rfl

/-- The body's arithmetic is the normalisation of its loaded block by its four loaded rows. -/
theorem norm1_body (x0 : Vec Ideal S2000x256 .f32) (xm xv xg xb : Vec Ideal S1x256 .f32) :
    k1_pay1 x0 xm xv xg xb = normRelu x0 xm xv xg xb := by
  unfold k1_pay1
  exact body_normRelu x0 xv xm xg xb shapeCasts_S2000x256_S2000x256 shapeCasts_S1x256_S1x256 broadcasts_S1x256_S2000x256

/-- The normalisation at an entry reads one entry of x and the column's entries of the four rows. -/
theorem normRelu_read (X : S50000x256.Idx → EReal) (X' : S2000x256.Idx → EReal) (μ v g β μ' v' g' β' : S1x256.Idx → EReal)
    (j : S2000x256.Idx) (i : S50000x256.Idx) (hcol : (i 1).val = (j 1).val) (hX : X' j = X i)
    (hμ : μ' = μ) (hv : v' = v) (hg : g' = g) (hβ : β' = β) :
    normRelu X' μ' v' g' β' j = normRelu X μ v g β i := by
  subst hμ hv hg hβ
  have hc : colOf j = colOf i := by
    funext a; apply Fin.ext
    match a with
    | ⟨0, _⟩ => rfl
    | ⟨1, _⟩ => exact hcol.symm
  show max ((X' j - μ' (colOf j)) * Ideal.rsqrt (v' (colOf j) + Ideal.ofBits .f32 0x3727C5AC#32) * g' (colOf j)
      + β' (colOf j)) (Ideal.ofBits .f32 0x00000000#32)
    = max ((X i - μ' (colOf i)) * Ideal.rsqrt (v' (colOf i) + Ideal.ofBits .f32 0x3727C5AC#32) * g' (colOf i)
      + β' (colOf i)) (Ideal.ofBits .f32 0x00000000#32)
  rw [hX, hc]

/-- Where the six windows sit at grid point t: the input's and the output's block of rows t, the four rows whole. -/
theorem blocks1 : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) = t.val :=
  (by decide +kernel : ∀ t : Fin grid1.N, _)

theorem gain1 (c : Dev nD) (t : Fin cfg1.N) : iblk1 V c 1 t = V c main_v49 := by
  obtain ⟨-, -, e2, e3, -⟩ := blocks1 t
  funext y
  show V c main_v49 (((cfg1.win 1).blk t).view.emb y) = V c main_v49 y
  refine congrArg (V c main_v49) (funext fun a => Fin.ext ?_)
  match a with
  | ⟨0, _⟩ => show win1_1.index t (0 : Fin 2) * 1 + 1 * (y 0).val = (y 0).val; omega
  | ⟨1, _⟩ => show win1_1.index t (1 : Fin 2) * 256 + 1 * (y 1).val = (y 1).val; omega

theorem shift1 (c : Dev nD) (t : Fin cfg1.N) : iblk1 V c 2 t = V c main_v50 := by
  obtain ⟨-, -, -, -, e4, e5, -⟩ := blocks1 t
  funext y
  show V c main_v50 (((cfg1.win 2).blk t).view.emb y) = V c main_v50 y
  refine congrArg (V c main_v50) (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

theorem mean1 (c : Dev nD) (t : Fin cfg1.N) : iblk1 V c 3 t = V c main_v51 := by
  obtain ⟨-, -, -, -, -, -, e6, e7, -⟩ := blocks1 t
  funext y
  show V c main_v51 (((cfg1.win 3).blk t).view.emb y) = V c main_v51 y
  refine congrArg (V c main_v51) (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

theorem variance1 (c : Dev nD) (t : Fin cfg1.N) : iblk1 V c 4 t = V c main_v52 := by
  obtain ⟨-, -, -, -, -, -, -, -, e8, e9, -⟩ := blocks1 t
  funext y
  show V c main_v52 (((cfg1.win 4).blk t).view.emb y) = V c main_v52 y
  refine congrArg (V c main_v52) (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- What point t writes back is block t of the normalisation of the whole arrays. -/
theorem rows1 (c : Dev nD) (t : Fin cfg1.N) :
    (dat1 V c).flushed 5 t = ((cfg1.win 5).blk t).view.read (Elt Ideal)
      (normRelu (V c main_v48) (V c main_v51) (V c main_v52) (V c main_v49) (V c main_v50)) := by
  show (cfg1.win 5).cut (grid1.coords t) ((dat1 V c).after 5 t) = _
  rw [after1_5]
  unfold out1_5
  rw [View.canon_unit_zero zeros2']
  simp only [View.ld_unit_zero (S := S2000x256) zeros2', View.ld_unit_zero (S := S1x256) zeros2']
  rw [norm1_body, gain1, shift1, mean1, variance1]
  obtain ⟨e0, e1, -, -, -, -, -, -, -, -, e10, e11⟩ := blocks1 t
  funext j
  show normRelu (iblk1 V c 0 t) (V c main_v51) (V c main_v52) (V c main_v49) (V c main_v50) j
    = normRelu (V c main_v48) (V c main_v51) (V c main_v52) (V c main_v49) (V c main_v50)
        (((cfg1.win 5).blk t).view.emb j)
  refine normRelu_read _ _ _ _ _ _ _ _ _ _ j _ ?_ ?_ rfl rfl rfl rfl
  · show win1_5.index t (1 : Fin 2) * 256 + 1 * (j 1).val = (j 1).val
    omega
  · show V c main_v48 (((cfg1.win 0).blk t).view.emb j) = V c main_v48 (((cfg1.win 5).blk t).view.emb j)
    refine congrArg (V c main_v48) (funext fun a => Fin.ext ?_)
    match a with
    | ⟨0, _⟩ =>
      show win1_0.index t (0 : Fin 2) * 2000 + 1 * (j 0).val = win1_5.index t (0 : Fin 2) * 2000 + 1 * (j 0).val
      omega
    | ⟨1, _⟩ =>
      show win1_0.index t (1 : Fin 2) * 256 + 1 * (j 1).val = win1_5.index t (1 : Fin 2) * 256 + 1 * (j 1).val
      omega

/-- An index of the output array is in point t's block iff its row is among the block's 2000 rows. -/
theorem in_rows1 (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v53).slice (win1_5.rect t)).set ↔ _
  rw [View.set_slice_whole, Rect.mem_set_unit]
  exact Iff.rfl

/-- Every row is in the block of the point numbered by its quotient by 2000. -/
theorem all_rows1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, e10, e11⟩ := blocks1 t
  refine ⟨t, flush1_5 t, ?_⟩
  rw [in_rows1]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 256 ≤ (i 1).val ∧ (i 1).val < win1_5.index t (1 : Fin 2) * 256 + 256
    omega

/-- The output array after the region: the normalisation of the arrays it was entered with. -/
theorem normalised1 (c : Dev nD) :
    (dat1 V c).arrAt 5 cfg1.N
      = normRelu (V c main_v48) (V c main_v51) (V c main_v52) (V c main_v49) (V c main_v50) :=
  (dat1 V c).arrAt_eq_of_cover 5 _ (fun t _ => rows1 V c t) all_rows1

end Cert.KernelIdeal.Val

end
-- ==== Proof.Norm3.lean ====
/-
  The second normalisation: as the first, on the second aggregated array with the second layer's four rows. The
  output array after the region is the normalisation of the arrays the region was entered with.
-/
import proofs.«163034_j11407433138237_1_alg».proof.Proof.Gen.KernelIdeal.Frame
import proofs.«163034_j11407433138237_1_alg».proof.Proof.LibNormLayers
import proofs.«163034_j11407433138237_1_alg».proof.Proof.Norm1
import Idealize.ShloMosaic.Lib.Pipeline.Value
import Idealize.ShloMosaic.Lib.ValueIdx

set_option maxRecDepth 16384

open scoped BigOperators

noncomputable section

namespace Cert.KernelIdeal.Val

open Idealize.ShloMosaic Idealize.ShloMosaic.TcCoe Idealize.ShloMosaic.ValueIdx Idealize.SL.Sem
open Cert.KernelIdeal Cert.KernelIdeal.Gen Cert.Lib.MatProd Cert.Lib.NormLayers
open Idealize.ShloMosaic.Pipeline (Dat)

variable (V : (c : Dev nD) → (b : Ref sig .tc) → Buf (Elt Ideal) ((c : Thread nD τ).loc b))

/-- The body's arithmetic is the normalisation of its loaded block by its four loaded rows. -/
theorem norm3_body (x0 : Vec Ideal S2000x256 .f32) (xm xv xg xb : Vec Ideal S1x256 .f32) :
    k3_pay1 x0 xm xv xg xb = normRelu x0 xm xv xg xb := by
  unfold k3_pay1
  exact body_normRelu x0 xv xm xg xb shapeCasts_S2000x256_S2000x256 shapeCasts_S1x256_S1x256 broadcasts_S1x256_S2000x256

/-- Where the six windows sit at grid point t: the input's and the output's block of rows t, the four rows whole. -/
theorem blocks3 : ∀ t : Fin cfg3.N, win3_0.index t (0 : Fin 2) = win3_5.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) = t.val :=
  (by decide +kernel : ∀ t : Fin grid3.N, _)

theorem gain3 (c : Dev nD) (t : Fin cfg3.N) : iblk3 V c 1 t = V c main_v71 := by
  obtain ⟨-, -, e2, e3, -⟩ := blocks3 t
  funext y
  show V c main_v71 (((cfg3.win 1).blk t).view.emb y) = V c main_v71 y
  refine congrArg (V c main_v71) (funext fun a => Fin.ext ?_)
  match a with
  | ⟨0, _⟩ => show win3_1.index t (0 : Fin 2) * 1 + 1 * (y 0).val = (y 0).val; omega
  | ⟨1, _⟩ => show win3_1.index t (1 : Fin 2) * 256 + 1 * (y 1).val = (y 1).val; omega

theorem shift3 (c : Dev nD) (t : Fin cfg3.N) : iblk3 V c 2 t = V c main_v72 := by
  obtain ⟨-, -, -, -, e4, e5, -⟩ := blocks3 t
  funext y
  show V c main_v72 (((cfg3.win 2).blk t).view.emb y) = V c main_v72 y
  refine congrArg (V c main_v72) (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

theorem mean3 (c : Dev nD) (t : Fin cfg3.N) : iblk3 V c 3 t = V c main_v73 := by
  obtain ⟨-, -, -, -, -, -, e6, e7, -⟩ := blocks3 t
  funext y
  show V c main_v73 (((cfg3.win 3).blk t).view.emb y) = V c main_v73 y
  refine congrArg (V c main_v73) (funext fun a => Fin.ext ?_)
  match a with
  | ⟨0, _⟩ => show win3_3.index t (0 : Fin 2) * 1 + 1 * (y 0).val = (y 0).val; omega
  | ⟨1, _⟩ => show win3_3.index t (1 : Fin 2) * 256 + 1 * (y 1).val = (y 1).val; omega

theorem variance3 (c : Dev nD) (t : Fin cfg3.N) : iblk3 V c 4 t = V c main_v74 := by
  obtain ⟨-, -, -, -, -, -, -, -, e8, e9, -⟩ := blocks3 t
  funext y
  show V c main_v74 (((cfg3.win 4).blk t).view.emb y) = V c main_v74 y
  refine congrArg (V c main_v74) (funext fun a => Fin.ext ?_)
  match a with
  | ⟨0, _⟩ => show win3_4.index t (0 : Fin 2) * 1 + 1 * (y 0).val = (y 0).val; omega
  | ⟨1, _⟩ => show win3_4.index t (1 : Fin 2) * 256 + 1 * (y 1).val = (y 1).val; omega

/-- What point t writes back is block t of the normalisation of the whole arrays. -/
theorem rows3 (c : Dev nD) (t : Fin cfg3.N) :
    (dat3 V c).flushed 5 t = ((cfg3.win 5).blk t).view.read (Elt Ideal)
      (normRelu (V c main_v70) (V c main_v73) (V c main_v74) (V c main_v71) (V c main_v72)) := by
  show (cfg3.win 5).cut (grid3.coords t) ((dat3 V c).after 5 t) = _
  rw [after3_5]
  unfold out3_5
  rw [View.canon_unit_zero zeros2']
  simp only [View.ld_unit_zero (S := S2000x256) zeros2', View.ld_unit_zero (S := S1x256) zeros2']
  rw [norm3_body, gain3, shift3, mean3, variance3]
  obtain ⟨e0, e1, -, -, -, -, -, -, -, -, e10, e11⟩ := blocks3 t
  funext j
  show normRelu (iblk3 V c 0 t) (V c main_v73) (V c main_v74) (V c main_v71) (V c main_v72) j
    = normRelu (V c main_v70) (V c main_v73) (V c main_v74) (V c main_v71) (V c main_v72)
        (((cfg3.win 5).blk t).view.emb j)
  refine normRelu_read _ _ _ _ _ _ _ _ _ _ j _ ?_ ?_ rfl rfl rfl rfl
  · show win3_5.index t (1 : Fin 2) * 256 + 1 * (j 1).val = (j 1).val
    omega
  · show V c main_v70 (((cfg3.win 0).blk t).view.emb j) = V c main_v70 (((cfg3.win 5).blk t).view.emb j)
    refine congrArg (V c main_v70) (funext fun a => Fin.ext ?_)
    match a with
    | ⟨0, _⟩ =>
      show win3_0.index t (0 : Fin 2) * 2000 + 1 * (j 0).val = win3_5.index t (0 : Fin 2) * 2000 + 1 * (j 0).val
      omega
    | ⟨1, _⟩ =>
      show win3_0.index t (1 : Fin 2) * 256 + 1 * (j 1).val = win3_5.index t (1 : Fin 2) * 256 + 1 * (j 1).val
      omega

/-- An index of the output array is in point t's block iff its row is among the block's 2000 rows. -/
theorem in_rows3 (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v75).slice (win3_5.rect t)).set ↔ _
  rw [View.set_slice_whole, Rect.mem_set_unit]
  exact Iff.rfl

/-- Every row is in the block of the point numbered by its quotient by 2000. -/
theorem all_rows3 (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, -, -, e10, e11⟩ := blocks3 t
  refine ⟨t, flush3_5 t, ?_⟩
  rw [in_rows3]
  intro a
  match a with
  | ⟨0, _⟩ =>
    show win3_5.index t (0 : Fin 2) * 2000 ≤ (i 0).val ∧ (i 0).val < win3_5.index t (0 : Fin 2) * 2000 + 2000
    omega
  | ⟨1, _⟩ =>
    show win3_5.index t (1 : Fin 2) * 256 ≤ (i 1).val ∧ (i 1).val < win3_5.index t (1 : Fin 2) * 256 + 256
    omega

/-- The output array after the region: the normalisation of the arrays it was entered with. -/
theorem normalised3 (c : Dev nD) :
    (dat3 V c).arrAt 5 cfg3.N
      = normRelu (V c main_v70) (V c main_v73) (V c main_v74) (V c main_v71) (V c main_v72) :=
  (dat3 V c).arrAt_eq_of_cover 5 _ (fun t _ => rows3 V c t) all_rows3

end Cert.KernelIdeal.Val

end
-- ==== Proof.Graph.lean ====
/-
  The graph part of the network, which both programs compute with the same host operations: from the 2×800000 edge
  list and the 800000 edge weights, the 850000 source and target nodes and weights of the edges with one loop of weight
  one added at every node; the weighted in-degree of every node; its inverse square root where it is positive and
  zero elsewhere; the symmetric normalisation of every edge (inverse root at the source, times the weight, times the
  inverse root at the target); and a layer's aggregation: each edge takes the source node's row of the transformed
  features (a negative node number counted from the end), scales it by the edge's normalisation, and the rows are
  summed at the edges' target nodes, after which the layer's bias is added to every node's row. Each is named here as
  one function of its inputs, over any float instance, so that a value proof never opens a gather or a scatter.
-/
import proofs.«163034_j11407433138237_1_alg».proof.Proof.Gen.KernelIdeal

noncomputable section

namespace Cert.KernelIdeal.Val

open Idealize.ShloMosaic Idealize.ShloMosaic.TcCoe
open Cert.KernelIdeal Cert.KernelIdeal.Gen

variable {F : FTy → Type} [FloatOps F]

/-- The edges' source nodes, each node's loop added. -/
def rowIx (ei : (⟨S2x800000, .i32⟩ : BufTy).Contents (Elt F)) : (⟨S850000, .i32⟩ : BufTy).Contents (Elt F) :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

/-- The edges' target nodes, each node's loop added. -/
def colIx (ei : (⟨S2x800000, .i32⟩ : BufTy).Contents (Elt F)) : (⟨S850000, .i32⟩ : BufTy).Contents (Elt F) :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- The edges' weights, each loop's weight one. -/
def edgeW (ew : (⟨S800000, .f32⟩ : BufTy).Contents (Elt F)) : (⟨S850000, .f32⟩ : BufTy).Contents (Elt F) :=
  concatenate S850000 0 [⟨S800000, ew⟩, ⟨S50000, broadcastInDim S50000 ![] bcast_S_S50000 (constant S_ .f32 0x3F800000#32)⟩] concatenates_S800000_S50000_S850000_d0

/-- A node number, a negative one counted from the end. -/
def wrapIx (r : (⟨S850000, .i32⟩ : BufTy).Contents (Elt F)) : (⟨S850000, .i32⟩ : BufTy).Contents (Elt F) :=
  select (cmpi .slt r (broadcastInDim S850000 ![] bcast_S_S850000 (constantI S_ 32 0#32)))
    (addi r (broadcastInDim S850000 ![] bcast_S_S850000 (constantI S_ 32 50000#32))) r

/-- Every node's weighted in-degree. -/
def degree (col : (⟨S850000, .i32⟩ : BufTy).Contents (Elt F)) (w : (⟨S850000, .f32⟩ : BufTy).Contents (Elt F)) :
    (⟨S50000, .f32⟩ : BufTy).Contents (Elt F) :=
  Host.scatterAdd scatter_S50000_S850000x1_S850000_n_0_0_1 (broadcastInDim S50000 ![] bcast_S_S50000 (constant S_ .f32 0x00000000#32))
    (broadcastInDim S850000x1 ![0] bcast_S850000_S850000x1_0 col) w

/-- Its inverse square root where the degree is positive, zero elsewhere. -/
def degInv (col : (⟨S850000, .i32⟩ : BufTy).Contents (Elt F)) (w : (⟨S850000, .f32⟩ : BufTy).Contents (Elt F)) :
    (⟨S50000, .f32⟩ : BufTy).Contents (Elt F) :=
  select (cmpf .ogt (degree col w) (broadcastInDim S50000 ![] bcast_S_S50000 (constant S_ .f32 0x00000000#32)))
    (Host.rsqrt (degree col w)) (broadcastInDim S50000 ![] bcast_S_S50000 (id (constant S_ .f32 0x00000000#32)))

/-- Every edge's normalisation: inverse root at the source, times the weight, times the inverse root at the target. -/
def edgeNorm (row col : (⟨S850000, .i32⟩ : BufTy).Contents (Elt F)) (w : (⟨S850000, .f32⟩ : BufTy).Contents (Elt F)) :
    (⟨S850000, .f32⟩ : BufTy).Contents (Elt F) :=
  mulf (mulf (Host.gather gather_S50000_S850000x1_S850000_n_0_n_n_0_1_1 (degInv col w)
      (broadcastInDim S850000x1 ![0] bcast_S850000_S850000x1_0 (wrapIx row))) w)
    (Host.gather gather_S50000_S850000x1_S850000_n_0_n_n_0_1_1 (degInv col w)
      (broadcastInDim S850000x1 ![0] bcast_S850000_S850000x1_0 (wrapIx col)))

/-- The normalisation of the edges of an edge list with given weights. -/
def nrm (ei : (⟨S2x800000, .i32⟩ : BufTy).Contents (Elt F)) (ew : (⟨S800000, .f32⟩ : BufTy).Contents (Elt F)) :
    (⟨S850000, .f32⟩ : BufTy).Contents (Elt F) :=
  edgeNorm (rowIx ei) (colIx ei) (edgeW ew)

/-- A layer's aggregation over 256 features, and its bias. -/
def aggregate256 (row col : (⟨S850000, .i32⟩ : BufTy).Contents (Elt F)) (nr : (⟨S850000, .f32⟩ : BufTy).Contents (Elt F))
    (h : (⟨S50000x256, .f32⟩ : BufTy).Contents (Elt F)) (b : (⟨S256, .f32⟩ : BufTy).Contents (Elt F)) :
    (⟨S50000x256, .f32⟩ : BufTy).Contents (Elt F) :=
  addf (Host.scatterAdd scatter_S50000x256_S850000x1_S850000x256_1_0_0_1
      (broadcastInDim S50000x256 ![] bcast_S_S50000x256 (constant S_ .f32 0x00000000#32))
      (broadcastInDim S850000x1 ![0] bcast_S850000_S850000x1_0 col)
      (mulf (Host.gather gather_S50000x256_S850000x1_S850000x256_1_0_n_n_0_1_1256 h
          (broadcastInDim S850000x1 ![0] bcast_S850000_S850000x1_0 (wrapIx row)))
        (broadcastInDim S850000x256 ![0, 1] bcast_S850000x1_S850000x256_0_1
          (broadcastInDim S850000x1 ![0] bcast_S850000_S850000x1_0 nr))))
    (broadcastInDim S50000x256 ![0, 1] bcast_S1x256_S50000x256_0_1 (broadcastInDim S1x256 ![1] bcast_S256_S1x256_1 b))

/-- The last layer's aggregation over 2 features, and its bias. -/
def aggregate2 (row col : (⟨S850000, .i32⟩ : BufTy).Contents (Elt F)) (nr : (⟨S850000, .f32⟩ : BufTy).Contents (Elt F))
    (h : (⟨S50000x2, .f32⟩ : BufTy).Contents (Elt F)) (b : (⟨S2, .f32⟩ : BufTy).Contents (Elt F)) :
    (⟨S50000x2, .f32⟩ : BufTy).Contents (Elt F) :=
  addf (Host.scatterAdd scatter_S50000x2_S850000x1_S850000x2_1_0_0_1
      (broadcastInDim S50000x2 ![] bcast_S_S50000x2 (constant S_ .f32 0x00000000#32))
      (broadcastInDim S850000x1 ![0] bcast_S850000_S850000x1_0 col)
      (mulf (Host.gather gather_S50000x2_S850000x1_S850000x2_1_0_n_n_0_1_12 h
          (broadcastInDim S850000x1 ![0] bcast_S850000_S850000x1_0 (wrapIx row)))
        (broadcastInDim S850000x2 ![0, 1] bcast_S850000x1_S850000x2_0_1
          (broadcastInDim S850000x1 ![0] bcast_S850000_S850000x1_0 nr))))
    (broadcastInDim S50000x2 ![0, 1] bcast_S1x2_S50000x2_0_1 (broadcastInDim S1x2 ![1] bcast_S2_S1x2_1 b))

end Cert.KernelIdeal.Val

end
-- ==== Proof.Stretches.lean ====
/-
  The program's host stretches read back. Between its kernel regions the program runs stretches of host operations;
  from ANY contents of the buffers at a stretch's entry, what the stretch leaves in the buffers a later region or the
  result reads is a named graph function of what the entry held: the stretch after the first product leaves the first
  layer's aggregation and the first normalisation's four rows; the stretch after the second product the second
  layer's aggregation and the second normalisation's four rows; the last stretch the last layer's aggregation, which
  is the result; and the stretches before the first region leave the edges' source and target nodes and their
  normalisation, computed from the edge list and the edge weights alone.
-/
import proofs.«163034_j11407433138237_1_alg».proof.Proof.Gen.KernelIdeal.Launch
import proofs.«163034_j11407433138237_1_alg».proof.Proof.Graph
import Idealize.ShloMosaic.Lib.StableHlo.Run

set_option maxRecDepth 16384

noncomputable section

namespace Cert.KernelIdeal.Val

open Idealize.ShloMosaic Idealize.ShloMosaic.TcCoe Idealize.ShloMosaic.StableHlo
open Cert.KernelIdeal Cert.KernelIdeal.Gen

variable {F : FTy → Type} [FloatOps F] (W : Valuation τ sig (Elt F))

/-! ## The last stretch: the result -/

theorem last_result : after hostOps5 W (Proc.devRef .tc main_v92)
    = aggregate2 (W (Proc.devRef .tc main_v3)) (W (Proc.devRef .tc main_v6)) (W (Proc.devRef .tc main_v31))
        (W (Proc.devRef .tc main_v76)) (W (Proc.devRef .tc main_arg16)) := by
  after_results_simp
  rfl

/-! ## The stretch after the second product -/

theorem second_aggregate : after hostOps3 W (Proc.devRef .tc main_v70)
    = aggregate256 (W (Proc.devRef .tc main_v3)) (W (Proc.devRef .tc main_v6)) (W (Proc.devRef .tc main_v31))
        (W (Proc.devRef .tc main_v54)) (W (Proc.devRef .tc main_arg10)) := by
  after_results_simp
  rfl

theorem second_gain : after hostOps3 W (Proc.devRef .tc main_v71)
    = shapeCast S1x256 (W (Proc.devRef .tc main_arg11)) shapeCasts_S256_S1x256 := by
  after_results_simp
  rfl
theorem second_shift : after hostOps3 W (Proc.devRef .tc main_v72)
    = shapeCast S1x256 (W (Proc.devRef .tc main_arg12)) shapeCasts_S256_S1x256 := by
  after_results_simp
  rfl
theorem second_mean : after hostOps3 W (Proc.devRef .tc main_v73)
    = shapeCast S1x256 (W (Proc.devRef .tc main_arg13)) shapeCasts_S256_S1x256 := by
  after_results_simp
  rfl
theorem second_variance : after hostOps3 W (Proc.devRef .tc main_v74)
    = shapeCast S1x256 (W (Proc.devRef .tc main_arg14)) shapeCasts_S256_S1x256 := by
  after_results_simp
  rfl

/-! ## The stretch after the first product -/

theorem first_aggregate : after hostOps1 W (Proc.devRef .tc main_v48)
    = aggregate256 (W (Proc.devRef .tc main_v3)) (W (Proc.devRef .tc main_v6)) (W (Proc.devRef .tc main_v31))
        (W (Proc.devRef .tc main_v32)) (W (Proc.devRef .tc main_arg4)) := by
  after_results_simp
  rfl

theorem first_gain : after hostOps1 W (Proc.devRef .tc main_v49)
    = shapeCast S1x256 (W (Proc.devRef .tc main_arg5)) shapeCasts_S256_S1x256 := by
  after_results_simp
  rfl
theorem first_shift : after hostOps1 W (Proc.devRef .tc main_v50)
    = shapeCast S1x256 (W (Proc.devRef .tc main_arg6)) shapeCasts_S256_S1x256 := by
  after_results_simp
  rfl
theorem first_mean : after hostOps1 W (Proc.devRef .tc main_v51)
    = shapeCast S1x256 (W (Proc.devRef .tc main_arg7)) shapeCasts_S256_S1x256 := by
  after_results_simp
  rfl
theorem first_variance : after hostOps1 W (Proc.devRef .tc main_v52)
    = shapeCast S1x256 (W (Proc.devRef .tc main_arg8)) shapeCasts_S256_S1x256 := by
  after_results_simp
  rfl

/-! ## The stretches before the first region -/

theorem sources : after hostOps0_2 (after hostOps0_1 (after hostOps0 W)) (Proc.devRef .tc main_v3)
    = rowIx (W (Proc.devRef .tc main_arg1)) := by
  after_results_simp
  rfl

theorem targets : after hostOps0_2 (after hostOps0_1 (after hostOps0 W)) (Proc.devRef .tc main_v6)
    = colIx (W (Proc.devRef .tc main_arg1)) := by
  after_results_simp
  rfl

theorem normalisation : after hostOps0_2 (after hostOps0_1 (after hostOps0 W)) (Proc.devRef .tc main_v31)
    = nrm (W (Proc.devRef .tc main_arg1)) (W (Proc.devRef .tc main_arg2)) := by
  after_results_simp
  rfl

end Cert.KernelIdeal.Val

end
-- ==== Proof.Network.lean ====
/-
  The whole network as one function of its seventeen argument arrays, on the extended reals: three graph
  convolutions — a dense transform of every node's features, the aggregation over the normalised edges, the bias —
  with a normalisation and a clamp at zero after the first two. The edges' source and target nodes and their
  normalisation depend on the edge list and the edge weights only, and are the same in the three layers.
-/
import proofs.«163034_j11407433138237_1_alg».proof.Proof.Graph
import proofs.«163034_j11407433138237_1_alg».proof.Proof.LibMatProd
import proofs.«163034_j11407433138237_1_alg».proof.Proof.LibRowVector
import proofs.«163034_j11407433138237_1_alg».proof.Proof.LibNormLayers

noncomputable section

namespace Cert.KernelIdeal.Val

open Idealize.ShloMosaic Idealize.ShloMosaic.TcCoe
open Cert.KernelIdeal Cert.KernelIdeal.Gen Cert.Lib.MatProd Cert.Lib.NormLayers Cert.Lib.RowVector

/-- One hidden layer: transform, aggregate, add the bias, normalise, clamp at zero. -/
def hidden (row col : (⟨S850000, .i32⟩ : BufTy).Contents (Elt Ideal)) (nr : (⟨S850000, .f32⟩ : BufTy).Contents (Elt Ideal))
    (h : (⟨S50000x256, .f32⟩ : BufTy).Contents (Elt Ideal))
    (b g β μ v : (⟨S256, .f32⟩ : BufTy).Contents (Elt Ideal)) : (⟨S50000x256, .f32⟩ : BufTy).Contents (Elt Ideal) :=
  normRelu (aggregate256 row col nr h b) (asRow μ) (asRow v) (asRow g) (asRow β)

/-- The network's result from its arguments. -/
def network (x : (⟨S50000x512, .f32⟩ : BufTy).Contents (Elt Ideal)) (ei : (⟨S2x800000, .i32⟩ : BufTy).Contents (Elt Ideal))
    (ew : (⟨S800000, .f32⟩ : BufTy).Contents (Elt Ideal))
    (w1 : (⟨S512x256, .f32⟩ : BufTy).Contents (Elt Ideal)) (b1 g1 β1 μ1 v1 : (⟨S256, .f32⟩ : BufTy).Contents (Elt Ideal))
    (w2 : (⟨S256x256, .f32⟩ : BufTy).Contents (Elt Ideal)) (b2 g2 β2 μ2 v2 : (⟨S256, .f32⟩ : BufTy).Contents (Elt Ideal))
    (w3 : (⟨S256x2, .f32⟩ : BufTy).Contents (Elt Ideal)) (b3 : (⟨S2, .f32⟩ : BufTy).Contents (Elt Ideal)) :
    (⟨S50000x2, .f32⟩ : BufTy).Contents (Elt Ideal) :=
  aggregate2 (rowIx ei) (colIx ei) (nrm ei ew)
    (matProd (hidden (rowIx ei) (colIx ei) (nrm ei ew)
      (matProd (hidden (rowIx ei) (colIx ei) (nrm ei ew) (matProd x w1) b1 g1 β1 μ1 v1) w2) b2 g2 β2 μ2 v2) w3) b3

end Cert.KernelIdeal.Val

end
-- ==== Proof.Fold.lean ====
/-
  The program's result as the network's function of the launch memory. The last boundary of the program's segments
  is a fold: host stretches applied to what the regions left, each region's output array at what its write-backs
  leave. Walking it back from the result: the last stretch aggregates the third product; the third product is the
  product of the second normalisation's output with the third weight; that output is the normalisation of the second
  aggregation; and so on down to the first product of the features with the first weight. The buffers a later
  segment reads but no segment in between writes — the edges' source and target nodes, their normalisation, the
  arguments — hold at every boundary what they held when first computed or launched.
-/
import proofs.«163034_j11407433138237_1_alg».proof.Proof.Gen.KernelIdeal.Frame
import proofs.«163034_j11407433138237_1_alg».proof.Proof.Dense0
import proofs.«163034_j11407433138237_1_alg».proof.Proof.Dense2
import proofs.«163034_j11407433138237_1_alg».proof.Proof.Dense4
import proofs.«163034_j11407433138237_1_alg».proof.Proof.Norm1
import proofs.«163034_j11407433138237_1_alg».proof.Proof.Norm3
import proofs.«163034_j11407433138237_1_alg».proof.Proof.Stretches
import proofs.«163034_j11407433138237_1_alg».proof.Proof.Network

set_option maxRecDepth 16384

noncomputable section

namespace Cert.KernelIdeal.Val

open Idealize.ShloMosaic Idealize.ShloMosaic.TcCoe Idealize.ShloMosaic.StableHlo Idealize.SL.Sem
open Cert.KernelIdeal Cert.KernelIdeal.Gen Cert.Lib.MatProd Cert.Lib.NormLayers Cert.Lib.RowVector

variable (m : (ℓ : Loc nD τ sig) → Buf (Elt Ideal) ℓ) (ρ : Dev nD → PrngReg) (c : Dev nD)

/-! ## A buffer no segment writes keeps its contents from boundary to boundary -/

/-- From the first region's entry back to the launch: an argument is as launched. -/
theorem launched (b : Ref sig .tc)
    (h : after hostOps0_2 (after hostOps0_1 (after hostOps0 (W0 m ρ c))) (Proc.devRef .tc b) = W0 m ρ c (Proc.devRef .tc b)) :
    W3 m ρ c (Proc.devRef .tc b) = m ((c : Thread nD τ).loc b) := h.trans rfl

/-- Across the first region and the stretch after it. -/
theorem across1 (b : Ref sig .tc) (h0 : ∀ w, Pipeline.arrRef spec0 w ≠ b)
    (hs : after hostOps1 (W4 m ρ c) (Proc.devRef .tc b) = W4 m ρ c (Proc.devRef .tc b)) :
    W5 m ρ c (Proc.devRef .tc b) = W3 m ρ c (Proc.devRef .tc b) := hs.trans (W4_of_ne m ρ c b h0)

/-- Across the first normalisation and the second product. -/
theorem across2 (b : Ref sig .tc) (h1 : ∀ w, Pipeline.arrRef spec1 w ≠ b) (h2 : ∀ w, Pipeline.arrRef spec2 w ≠ b) :
    W7 m ρ c (Proc.devRef .tc b) = W5 m ρ c (Proc.devRef .tc b) := (W7_of_ne m ρ c b h2).trans (W6_of_ne m ρ c b h1)

/-- Across the stretch after the second product. -/
theorem across3 (b : Ref sig .tc) (hs : after hostOps3 (W7 m ρ c) (Proc.devRef .tc b) = W7 m ρ c (Proc.devRef .tc b)) :
    W8 m ρ c (Proc.devRef .tc b) = W7 m ρ c (Proc.devRef .tc b) := hs

/-- Across the second normalisation and the third product. -/
theorem across4 (b : Ref sig .tc) (h3 : ∀ w, Pipeline.arrRef spec3 w ≠ b) (h4 : ∀ w, Pipeline.arrRef spec4 w ≠ b) :
    W10 m ρ c (Proc.devRef .tc b) = W8 m ρ c (Proc.devRef .tc b) := (W10_of_ne m ρ c b h4).trans (W9_of_ne m ρ c b h3)

/-! ## What the first region is entered with -/

theorem x_3 : W3 m ρ c (Proc.devRef .tc main_arg0) = (m ((c : Thread nD τ).loc main_arg0)) := launched m ρ c main_arg0 (by after_results_simp)
theorem w1_3 : W3 m ρ c (Proc.devRef .tc main_arg3) = (m ((c : Thread nD τ).loc main_arg3)) := launched m ρ c main_arg3 (by after_results_simp)
theorem row_3 : W3 m ρ c (Proc.devRef .tc main_v3) = rowIx (m ((c : Thread nD τ).loc main_arg1)) := sources (W0 m ρ c)
theorem col_3 : W3 m ρ c (Proc.devRef .tc main_v6) = colIx (m ((c : Thread nD τ).loc main_arg1)) := targets (W0 m ρ c)
theorem nrm_3 : W3 m ρ c (Proc.devRef .tc main_v31) = nrm (m ((c : Thread nD τ).loc main_arg1)) (m ((c : Thread nD τ).loc main_arg2)) := normalisation (W0 m ρ c)

/-! ## The first layer -/

theorem prod_4 : W4 m ρ c (Proc.devRef .tc main_v32) = matProd (m ((c : Thread nD τ).loc main_arg0)) (m ((c : Thread nD τ).loc main_arg3)) := by
  refine (W4_arr m ρ c 2).trans ((product0 (V3 m ρ) c).trans ?_)
  show matProd (W3 m ρ c (Proc.devRef .tc main_arg0)) (W3 m ρ c (Proc.devRef .tc main_arg3)) = _
  rw [x_3, w1_3]

theorem row_4 : W4 m ρ c (Proc.devRef .tc main_v3) = rowIx (m ((c : Thread nD τ).loc main_arg1)) := (W4_of_ne m ρ c main_v3 (by decide)).trans (row_3 m ρ c)
theorem col_4 : W4 m ρ c (Proc.devRef .tc main_v6) = colIx (m ((c : Thread nD τ).loc main_arg1)) := (W4_of_ne m ρ c main_v6 (by decide)).trans (col_3 m ρ c)
theorem nrm_4 : W4 m ρ c (Proc.devRef .tc main_v31) = nrm (m ((c : Thread nD τ).loc main_arg1)) (m ((c : Thread nD τ).loc main_arg2)) := (W4_of_ne m ρ c main_v31 (by decide)).trans (nrm_3 m ρ c)
theorem b1_4 : W4 m ρ c (Proc.devRef .tc main_arg4) = (m ((c : Thread nD τ).loc main_arg4)) :=
  (W4_of_ne m ρ c main_arg4 (by decide)).trans (launched m ρ c main_arg4 (by after_results_simp))
theorem g1_4 : W4 m ρ c (Proc.devRef .tc main_arg5) = (m ((c : Thread nD τ).loc main_arg5)) :=
  (W4_of_ne m ρ c main_arg5 (by decide)).trans (launched m ρ c main_arg5 (by after_results_simp))
theorem β1_4 : W4 m ρ c (Proc.devRef .tc main_arg6) = (m ((c : Thread nD τ).loc main_arg6)) :=
  (W4_of_ne m ρ c main_arg6 (by decide)).trans (launched m ρ c main_arg6 (by after_results_simp))
theorem μ1_4 : W4 m ρ c (Proc.devRef .tc main_arg7) = (m ((c : Thread nD τ).loc main_arg7)) :=
  (W4_of_ne m ρ c main_arg7 (by decide)).trans (launched m ρ c main_arg7 (by after_results_simp))
theorem v1_4 : W4 m ρ c (Proc.devRef .tc main_arg8) = (m ((c : Thread nD τ).loc main_arg8)) :=
  (W4_of_ne m ρ c main_arg8 (by decide)).trans (launched m ρ c main_arg8 (by after_results_simp))

/-- The first hidden layer's output, where the first normalisation leaves it. -/
theorem hidden_6 : W6 m ρ c (Proc.devRef .tc main_v53)
    = hidden (rowIx (m ((c : Thread nD τ).loc main_arg1))) (colIx (m ((c : Thread nD τ).loc main_arg1))) (nrm (m ((c : Thread nD τ).loc main_arg1)) (m ((c : Thread nD τ).loc main_arg2))) (matProd (m ((c : Thread nD τ).loc main_arg0)) (m ((c : Thread nD τ).loc main_arg3)))
        (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 5).trans ((normalised1 (V5 m ρ) c).trans ?_)
  show normRelu (after hostOps1 (W4 m ρ c) (Proc.devRef .tc main_v48)) (after hostOps1 (W4 m ρ c) (Proc.devRef .tc main_v51))
      (after hostOps1 (W4 m ρ c) (Proc.devRef .tc main_v52)) (after hostOps1 (W4 m ρ c) (Proc.devRef .tc main_v49))
      (after hostOps1 (W4 m ρ c) (Proc.devRef .tc main_v50)) = _
  rw [first_aggregate, first_mean, first_variance, first_gain, first_shift, row_4, col_4, nrm_4, prod_4, b1_4, g1_4,
    β1_4, μ1_4, v1_4, shapeCast_eq_asRow, shapeCast_eq_asRow, shapeCast_eq_asRow, shapeCast_eq_asRow]
  rfl

/-! ## The second layer -/

theorem w2_6 : W6 m ρ c (Proc.devRef .tc main_arg9) = (m ((c : Thread nD τ).loc main_arg9)) :=
  (W6_of_ne m ρ c main_arg9 (by decide)).trans
    ((across1 m ρ c main_arg9 (by decide) (by after_results_simp)).trans (launched m ρ c main_arg9 (by after_results_simp)))

theorem prod_7 : W7 m ρ c (Proc.devRef .tc main_v54)
    = matProd (hidden (rowIx (m ((c : Thread nD τ).loc main_arg1))) (colIx (m ((c : Thread nD τ).loc main_arg1))) (nrm (m ((c : Thread nD τ).loc main_arg1)) (m ((c : Thread nD τ).loc main_arg2))) (matProd (m ((c : Thread nD τ).loc main_arg0)) (m ((c : Thread nD τ).loc main_arg3)))
        (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) := by
  refine (W7_arr m ρ c 2).trans ((product2 (V6 m ρ) c).trans ?_)
  show matProd (W6 m ρ c (Proc.devRef .tc main_v53)) (W6 m ρ c (Proc.devRef .tc main_arg9)) = _
  rw [hidden_6, w2_6]

theorem row_7 : W7 m ρ c (Proc.devRef .tc main_v3) = rowIx (m ((c : Thread nD τ).loc main_arg1)) :=
  (across2 m ρ c main_v3 (by decide) (by decide)).trans ((across1 m ρ c main_v3 (by decide) (by after_results_simp)).trans (row_3 m ρ c))
theorem col_7 : W7 m ρ c (Proc.devRef .tc main_v6) = colIx (m ((c : Thread nD τ).loc main_arg1)) :=
  (across2 m ρ c main_v6 (by decide) (by decide)).trans ((across1 m ρ c main_v6 (by decide) (by after_results_simp)).trans (col_3 m ρ c))
theorem nrm_7 : W7 m ρ c (Proc.devRef .tc main_v31) = nrm (m ((c : Thread nD τ).loc main_arg1)) (m ((c : Thread nD τ).loc main_arg2)) :=
  (across2 m ρ c main_v31 (by decide) (by decide)).trans ((across1 m ρ c main_v31 (by decide) (by after_results_simp)).trans (nrm_3 m ρ c))
theorem b2_7 : W7 m ρ c (Proc.devRef .tc main_arg10) = (m ((c : Thread nD τ).loc main_arg10)) :=
  (across2 m ρ c main_arg10 (by decide) (by decide)).trans
    ((across1 m ρ c main_arg10 (by decide) (by after_results_simp)).trans (launched m ρ c main_arg10 (by after_results_simp)))
theorem g2_7 : W7 m ρ c (Proc.devRef .tc main_arg11) = (m ((c : Thread nD τ).loc main_arg11)) :=
  (across2 m ρ c main_arg11 (by decide) (by decide)).trans
    ((across1 m ρ c main_arg11 (by decide) (by after_results_simp)).trans (launched m ρ c main_arg11 (by after_results_simp)))
theorem β2_7 : W7 m ρ c (Proc.devRef .tc main_arg12) = (m ((c : Thread nD τ).loc main_arg12)) :=
  (across2 m ρ c main_arg12 (by decide) (by decide)).trans
    ((across1 m ρ c main_arg12 (by decide) (by after_results_simp)).trans (launched m ρ c main_arg12 (by after_results_simp)))
theorem μ2_7 : W7 m ρ c (Proc.devRef .tc main_arg13) = (m ((c : Thread nD τ).loc main_arg13)) :=
  (across2 m ρ c main_arg13 (by decide) (by decide)).trans
    ((across1 m ρ c main_arg13 (by decide) (by after_results_simp)).trans (launched m ρ c main_arg13 (by after_results_simp)))
theorem v2_7 : W7 m ρ c (Proc.devRef .tc main_arg14) = (m ((c : Thread nD τ).loc main_arg14)) :=
  (across2 m ρ c main_arg14 (by decide) (by decide)).trans
    ((across1 m ρ c main_arg14 (by decide) (by after_results_simp)).trans (launched m ρ c main_arg14 (by after_results_simp)))

/-- The second hidden layer's output, where the second normalisation leaves it. -/
theorem hidden_9 : W9 m ρ c (Proc.devRef .tc main_v75)
    = hidden (rowIx (m ((c : Thread nD τ).loc main_arg1))) (colIx (m ((c : Thread nD τ).loc main_arg1))) (nrm (m ((c : Thread nD τ).loc main_arg1)) (m ((c : Thread nD τ).loc main_arg2)))
        (matProd (hidden (rowIx (m ((c : Thread nD τ).loc main_arg1))) (colIx (m ((c : Thread nD τ).loc main_arg1))) (nrm (m ((c : Thread nD τ).loc main_arg1)) (m ((c : Thread nD τ).loc main_arg2))) (matProd (m ((c : Thread nD τ).loc main_arg0)) (m ((c : Thread nD τ).loc main_arg3)))
          (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)))
        (m ((c : Thread nD τ).loc main_arg10)) (m ((c : Thread nD τ).loc main_arg11)) (m ((c : Thread nD τ).loc main_arg12)) (m ((c : Thread nD τ).loc main_arg13)) (m ((c : Thread nD τ).loc main_arg14)) := by
  refine (W9_arr m ρ c 5).trans ((normalised3 (V8 m ρ) c).trans ?_)
  show normRelu (after hostOps3 (W7 m ρ c) (Proc.devRef .tc main_v70)) (after hostOps3 (W7 m ρ c) (Proc.devRef .tc main_v73))
      (after hostOps3 (W7 m ρ c) (Proc.devRef .tc main_v74)) (after hostOps3 (W7 m ρ c) (Proc.devRef .tc main_v71))
      (after hostOps3 (W7 m ρ c) (Proc.devRef .tc main_v72)) = _
  rw [second_aggregate, second_mean, second_variance, second_gain, second_shift, row_7, col_7, nrm_7, prod_7, b2_7, g2_7,
    β2_7, μ2_7, v2_7, shapeCast_eq_asRow, shapeCast_eq_asRow, shapeCast_eq_asRow, shapeCast_eq_asRow]
  rfl

/-! ## The third layer -/

theorem w3_9 : W9 m ρ c (Proc.devRef .tc main_arg15) = (m ((c : Thread nD τ).loc main_arg15)) :=
  (W9_of_ne m ρ c main_arg15 (by decide)).trans ((across3 m ρ c main_arg15 (by after_results_simp)).trans
    ((across2 m ρ c main_arg15 (by decide) (by decide)).trans
      ((across1 m ρ c main_arg15 (by decide) (by after_results_simp)).trans (launched m ρ c main_arg15 (by after_results_simp)))))

theorem row_10 : W10 m ρ c (Proc.devRef .tc main_v3) = rowIx (m ((c : Thread nD τ).loc main_arg1)) :=
  (across4 m ρ c main_v3 (by decide) (by decide)).trans ((across3 m ρ c main_v3 (by after_results_simp)).trans (row_7 m ρ c))
theorem col_10 : W10 m ρ c (Proc.devRef .tc main_v6) = colIx (m ((c : Thread nD τ).loc main_arg1)) :=
  (across4 m ρ c main_v6 (by decide) (by decide)).trans ((across3 m ρ c main_v6 (by after_results_simp)).trans (col_7 m ρ c))
theorem nrm_10 : W10 m ρ c (Proc.devRef .tc main_v31) = nrm (m ((c : Thread nD τ).loc main_arg1)) (m ((c : Thread nD τ).loc main_arg2)) :=
  (across4 m ρ c main_v31 (by decide) (by decide)).trans ((across3 m ρ c main_v31 (by after_results_simp)).trans (nrm_7 m ρ c))
theorem b3_10 : W10 m ρ c (Proc.devRef .tc main_arg16) = (m ((c : Thread nD τ).loc main_arg16)) :=
  (across4 m ρ c main_arg16 (by decide) (by decide)).trans ((across3 m ρ c main_arg16 (by after_results_simp)).trans
    ((across2 m ρ c main_arg16 (by decide) (by decide)).trans
      ((across1 m ρ c main_arg16 (by decide) (by after_results_simp)).trans (launched m ρ c main_arg16 (by after_results_simp)))))

theorem prod_10 : W10 m ρ c (Proc.devRef .tc main_v76)
    = matProd (hidden (rowIx (m ((c : Thread nD τ).loc main_arg1))) (colIx (m ((c : Thread nD τ).loc main_arg1))) (nrm (m ((c : Thread nD τ).loc main_arg1)) (m ((c : Thread nD τ).loc main_arg2)))
        (matProd (hidden (rowIx (m ((c : Thread nD τ).loc main_arg1))) (colIx (m ((c : Thread nD τ).loc main_arg1))) (nrm (m ((c : Thread nD τ).loc main_arg1)) (m ((c : Thread nD τ).loc main_arg2))) (matProd (m ((c : Thread nD τ).loc main_arg0)) (m ((c : Thread nD τ).loc main_arg3)))
          (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)))
        (m ((c : Thread nD τ).loc main_arg10)) (m ((c : Thread nD τ).loc main_arg11)) (m ((c : Thread nD τ).loc main_arg12)) (m ((c : Thread nD τ).loc main_arg13)) (m ((c : Thread nD τ).loc main_arg14))) (m ((c : Thread nD τ).loc main_arg15)) := by
  refine (W10_arr m ρ c 2).trans ((product4 (V9 m ρ) c).trans ?_)
  show matProd (W9 m ρ c (Proc.devRef .tc main_v75)) (W9 m ρ c (Proc.devRef .tc main_arg15)) = _
  rw [hidden_9, w3_9]

/-- The result buffer at the last boundary is the network's function of the launch memory. -/
theorem result_value : W11 m ρ c (Proc.devRef .tc main_v92)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) (m ((c : Thread nD τ).loc main_arg15)) (m ((c : Thread nD τ).loc main_arg16)) := by
  show after hostOps5 (W10 m ρ c) (Proc.devRef .tc main_v92) = _
  rw [last_result, row_10, col_10, nrm_10, prod_10, b3_10]
  rfl

end Cert.KernelIdeal.Val

end
-- ==== Proof.RefNetwork.lean ====
/-
  The reference program computes the same network. Its composed term applies, to its own arguments, the same graph
  functions as the other program (source and target nodes, edge normalisation — recomputed in each layer from the same
  edge list and weights, so the same —, the aggregations), the host's dot_general where the other program multiplies
  block by block, and the normalisation spelt with vectors broadcast to a row and down the rows. On the extended reals
  a dot_general is the matrix product and that spelling is the normalisation, so the reference's result is the
  network's function of its arguments.
-/
import proofs.«163034_j11407433138237_1_alg».proof.Proof.Gen.ReferenceIdeal.Run
import proofs.«163034_j11407433138237_1_alg».proof.Proof.Network

set_option maxRecDepth 16384

noncomputable section

namespace Cert.ReferenceIdeal.RefValue

open Idealize.ShloMosaic Idealize.ShloMosaic.TcCoe Idealize.SL.Sem
open Cert.ReferenceIdeal Cert.ReferenceIdeal.Gen
open Cert.Lib.MatProd Cert.Lib.NormLayers Cert.Lib.RowVector

section Terms
variable {F : FTy → Type} [FloatOps F]

/-- A vector repeated down the rows of a 50000×256 array, the reference's way. -/
def downRows (z : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 z)

/-- The reference's normalisation and clamp at zero. -/
def hostNorm (X : (⟨S50000x256, .f32⟩ : BufTy).Contents (Elt F)) (μ v g β : (⟨S256, .f32⟩ : BufTy).Contents (Elt F)) : (⟨S50000x256, .f32⟩ : BufTy).Contents (Elt F) :=
  maximumf (addf (mulf (mulf (subf X (downRows μ))
      (downRows (Host.rsqrt (addf v (broadcastInDim S256 ![] bcast_S_S256 (constant S_ .f32 0x3727C5AC#32))))))
      (downRows g)) (downRows β))
    (broadcastInDim S50000x256 ![] bcast_S_S50000x256 (constant S_ .f32 0x00000000#32))

/-- The reference's composed term, the graph functions named. -/
def refNetwork (x : (⟨S50000x512, .f32⟩ : BufTy).Contents (Elt F)) (ei : (⟨S2x800000, .i32⟩ : BufTy).Contents (Elt F)) (ew : (⟨S800000, .f32⟩ : BufTy).Contents (Elt F))
    (w1 : (⟨S512x256, .f32⟩ : BufTy).Contents (Elt F)) (b1 g1 β1 μ1 v1 : (⟨S256, .f32⟩ : BufTy).Contents (Elt F))
    (w2 : (⟨S256x256, .f32⟩ : BufTy).Contents (Elt F)) (b2 g2 β2 μ2 v2 : (⟨S256, .f32⟩ : BufTy).Contents (Elt F))
    (w3 : (⟨S256x2, .f32⟩ : BufTy).Contents (Elt F)) (b3 : (⟨S2, .f32⟩ : BufTy).Contents (Elt F)) : (⟨S50000x2, .f32⟩ : BufTy).Contents (Elt F) :=
  Cert.KernelIdeal.Val.aggregate2 (Cert.KernelIdeal.Val.rowIx ei) (Cert.KernelIdeal.Val.colIx ei) (Cert.KernelIdeal.Val.nrm ei ew)
    (Host.dotGeneral dot_S50000x256_S256x2_S50000x2_1_0_0_1_n_n none
      (hostNorm (Cert.KernelIdeal.Val.aggregate256 (Cert.KernelIdeal.Val.rowIx ei) (Cert.KernelIdeal.Val.colIx ei) (Cert.KernelIdeal.Val.nrm ei ew)
        (Host.dotGeneral dot_S50000x256_S256x256_S50000x256_1_0_0_1_n_n none
          (hostNorm (Cert.KernelIdeal.Val.aggregate256 (Cert.KernelIdeal.Val.rowIx ei) (Cert.KernelIdeal.Val.colIx ei) (Cert.KernelIdeal.Val.nrm ei ew)
            (Host.dotGeneral dot_S50000x512_S512x256_S50000x256_1_0_0_1_n_n none x w1) b1) μ1 v1 g1 β1) w2) b2)
        μ2 v2 g2 β2) w3) b3

end Terms

/-- The reference's result term is that composition of its arguments. -/
theorem result_term (m : (ℓ : Loc nD τ sig) → Buf (Elt Ideal) ℓ) (c : Dev nD) :
    Cert.ReferenceIdeal.Value.res_main_v160 (F := Ideal) m c
      = refNetwork (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) := by
  unfold Cert.ReferenceIdeal.Value.res_main_v160
  rfl

theorem dot1_eq (X : FVec Ideal S50000x512 .f32) (W : FVec Ideal S512x256 .f32) :
    Host.dotGeneral (F := Ideal) dot_S50000x512_S512x256_S50000x256_1_0_0_1_n_n none X W = matProd X W :=
  dotGeneral_eq_matProd dot_S50000x512_S512x256_S50000x256_1_0_0_1_n_n rfl rfl rfl rfl rfl rfl none _ X W

theorem dot2_eq (X : FVec Ideal S50000x256 .f32) (W : FVec Ideal S256x256 .f32) :
    Host.dotGeneral (F := Ideal) dot_S50000x256_S256x256_S50000x256_1_0_0_1_n_n none X W = matProd X W :=
  dotGeneral_eq_matProd dot_S50000x256_S256x256_S50000x256_1_0_0_1_n_n rfl rfl rfl rfl rfl rfl none _ X W

theorem dot3_eq (X : FVec Ideal S50000x256 .f32) (W : FVec Ideal S256x2 .f32) :
    Host.dotGeneral (F := Ideal) dot_S50000x256_S256x2_S50000x2_1_0_0_1_n_n none X W = matProd X W :=
  dotGeneral_eq_matProd dot_S50000x256_S256x2_S50000x2_1_0_0_1_n_n rfl rfl rfl rfl rfl rfl none _ X W

theorem hostNorm_eq (X : FVec Ideal S50000x256 .f32) (μ v g β : FVec Ideal S256 .f32) :
    hostNorm (F := Ideal) X μ v g β = normRelu X (asRow μ) (asRow v) (asRow g) (asRow β) :=
  host_normRelu X μ v g β bcast_S256_S1x256_1 bcast_S1x256_S50000x256_0_1 bcast_S_S256 bcast_S_S50000x256

/-- The reference's composition is the network. -/
theorem refNetwork_eq (x : (⟨S50000x512, .f32⟩ : BufTy).Contents (Elt Ideal)) (ei : (⟨S2x800000, .i32⟩ : BufTy).Contents (Elt Ideal)) (ew : (⟨S800000, .f32⟩ : BufTy).Contents (Elt Ideal))
    (w1 : (⟨S512x256, .f32⟩ : BufTy).Contents (Elt Ideal)) (b1 g1 β1 μ1 v1 : (⟨S256, .f32⟩ : BufTy).Contents (Elt Ideal))
    (w2 : (⟨S256x256, .f32⟩ : BufTy).Contents (Elt Ideal)) (b2 g2 β2 μ2 v2 : (⟨S256, .f32⟩ : BufTy).Contents (Elt Ideal))
    (w3 : (⟨S256x2, .f32⟩ : BufTy).Contents (Elt Ideal)) (b3 : (⟨S2, .f32⟩ : BufTy).Contents (Elt Ideal)) :
    refNetwork (F := Ideal) x ei ew w1 b1 g1 β1 μ1 v1 w2 b2 g2 β2 μ2 v2 w3 b3
      = Cert.KernelIdeal.Val.network x ei ew w1 b1 g1 β1 μ1 v1 w2 b2 g2 β2 μ2 v2 w3 b3 := by
  unfold refNetwork
  rw [dot1_eq, hostNorm_eq, dot2_eq, hostNorm_eq, dot3_eq]
  rfl

end Cert.ReferenceIdeal.RefValue

end
-- ==== Proof.lean ====
/-
  A three-layer graph convolutional network over 50000 nodes and 800000 weighted edges (a loop of weight one added
  at every node): each layer transforms every node's features by a weight matrix, sums over the edges into a node the
  source node's transformed features scaled by the edge's symmetric normalisation (inverse root of the in-degree at
  both ends, times the weight), and adds a bias; the first two layers are followed by a per-feature normalisation by
  given means and variances, an affine map, and a clamp at zero.

  One program does the three dense transforms and the two normalisations in kernel regions, 25 blocks of 2000 nodes
  each, and the graph part on the host; the other is plain host code. On the extended reals they compute one
  function of their arguments: a block of rows of a matrix product is the product of that block of rows, and a
  normalisation acts entry by entry, so each region leaves the whole-array product or normalisation of what it was
  entered with; narrowing a product's operands changes nothing; the host's dot_general is the same sum; the graph
  part is the same host operations in both programs, applied to the same values. No law that needs finite values is
  used (sums are only re-indexed, never distributed), so the precondition is not opened. The ideal pass rewrote
  nothing, so the second program is the first read on the extended reals and `preserves` has nothing to state.
-/
import proofs.«163034_j11407433138237_1_alg».proof.Defs
import proofs.«163034_j11407433138237_1_alg».proof.Proof.Gen.Kernel
import proofs.«163034_j11407433138237_1_alg».proof.Proof.Gen.Kernel.Frame
import proofs.«163034_j11407433138237_1_alg».proof.Proof.Gen.KernelIdeal
import proofs.«163034_j11407433138237_1_alg».proof.Proof.Gen.KernelIdeal.Frame
import proofs.«163034_j11407433138237_1_alg».proof.Proof.Gen.ReferenceIdeal
import proofs.«163034_j11407433138237_1_alg».proof.Proof.Gen.ReferenceIdeal.Run
import proofs.«163034_j11407433138237_1_alg».proof.Proof.Gen.Pre_finite_inputs
import proofs.«163034_j11407433138237_1_alg».proof.Proof.KernelRun
import proofs.«163034_j11407433138237_1_alg».proof.Proof.Fold
import proofs.«163034_j11407433138237_1_alg».proof.Proof.RefNetwork
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network's function of the arguments, which agree. -/
theorem algebraic : Cert.algebraic_KernelIdeal_ReferenceIdeal := by
  intro m ρ m' ρ' _ hagree
  refine ⟨fun c => Cert.KernelIdeal.Val.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Val.result_value m ρ c), (h c).2⟩)
      (Cert.KernelIdeal.Val.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_term, Cert.ReferenceIdeal.RefValue.refNetwork_eq]
    obtain ⟨h0, h1, h2, h3, h4, h5, h6, h7, h8, h9, h10, h11, h12, h13, h14, h15, h16⟩ := hagree c
    rw [h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
